-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8x4096x1 : Shape := ⟨3, ![8, 4096, 1]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8x4096x1 : S_.BroadcastsInDim S8x4096x1 (![] : Fin 0 → Fin S8x4096x1.rank)
  reducesTo_S8x4096x1_S_d0_1_2 : S8x4096x1.ReducesTo [0, 1, 2] S_

variable [Facts]

def fn {F : FTy → Type} [FloatOps F] (main_arg0 : FVec F S8x4096x256 .f32) (main_arg1 : FVec F S8x4096x1 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x1 .f32 := Host.absf main_arg1
  let main_cst_0 : FVec F S_ .f32 := constant S_ .f32 0x7F800000#32
  let main_v5 : FVec F S8x4096x1 .f32 := broadcastInDim S8x4096x1 ![] bcast_S_S8x4096x1 main_cst_0
  let main_v6 : IVec S8x4096x1 1 := cmpf .olt main_v4 main_v5
  let main_c_1 : IVec S_ 1 := constantI S_ 1 1#1
  let main_v7 : IVec S_ 1 := (fun x v => Host.reduce IntOp.andi x v reducesTo_S8x4096x1_S_d0_1_2 h_S_) main_v6 main_c_1
  let main_v8 : IVec S_ 1 := andi main_v3 main_v7
  main_v8
-- ==== Kernel.lean ====
abbrev S8x4096x256 : Shape := ⟨3, ![8, 4096, 256]⟩
abbrev S8x4096x1 : Shape := ⟨3, ![8, 4096, 1]⟩
abbrev S8x1x1 : Shape := ⟨3, ![8, 1, 1]⟩
abbrev S1x4096x256 : Shape := ⟨3, ![1, 4096, 256]⟩
abbrev S1x4096x1 : Shape := ⟨3, ![1, 4096, 1]⟩
abbrev S1x1x1 : Shape := ⟨3, ![1, 1, 1]⟩
abbrev S1x256 : Shape := ⟨2, ![1, 256]⟩
abbrev S1x1024x256 : Shape := ⟨3, ![1, 1024, 256]⟩
abbrev S1024x256 : Shape := ⟨2, ![1024, 256]⟩
abbrev S1024 : Shape := ⟨1, ![1024]⟩
abbrev S1024x1 : Shape := ⟨2, ![1024, 1]⟩
abbrev S256 : Shape := ⟨1, ![256]⟩
abbrev S1x1 : Shape := ⟨2, ![1, 1]⟩
abbrev S1x1024x1 : Shape := ⟨3, ![1, 1024, 1]⟩
abbrev S1 : Shape := ⟨1, ![1]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S8x4096x256, .f32⟩
  | .hbm, ⟨1, _⟩ => ⟨S8x4096x1, .f32⟩
  | .hbm, ⟨2, _⟩ => ⟨S8x1x1, .f32⟩
  | .hbm, ⟨3, _⟩ => ⟨S8x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x1, .f32⟩
  | .local _ .vmem, ⟨3, _⟩ => ⟨S1x4096x1, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1024_i32 : BitVec 32 := 1024#32
  let v12 : BitVec 32 := Scalar.muli arg5 c1024_i32
  v12
def k0_off1 (k0_t1 : Fin k0_t1_loop.trips) : Fin 3 → Nat :=
  let c0_11 : Index := 0#32
  let c0_i32 : BitVec 32 := 0#32
  let c1_i32 : BitVec 32 := 1#32
  let arg5 : BitVec 32 := Scf.iv c0_i32 c1_i32 k0_t1
  let c1024_i32 : BitVec 32 := 1024#32
  let v12 : BitVec 32 := Scalar.muli arg5 c1024_i32
  let v13 : BitVec 32 := v12
  let v14 : Index := Scalar.indexCast v13
  let c0_12 : Index := 0#32
  ![0, v14.toNat, 0]
@[reducible] def k0_t2_loop : Scf.Loop 32 :=
  let c0_i32_2 : BitVec 32 := 0#32
  let c4_i32_3 : BitVec 32 := 4#32
  let v4 : BitVec 32 := Scalar.addi c0_i32_2 c4_i32_3
  let c1_i32_4 : BitVec 32 := 1#32
  ⟨c0_i32_2, v4, c1_i32_4⟩
def k0_mult2 (k0_t2 : Fin k0_t2_loop.trips) : BitVec 32 :=
  let c0_i32_2 : BitVec 32 := 0#32
  let c1_i32_4 : BitVec 32 := 1#32
  let arg5 : BitVec 32 := Scf.iv c0_i32_2 c1_i32_4 k0_t2
  let c1024_i32 : BitVec 32 := 1024#32
  let v12 : BitVec 32 := Scalar.muli arg5 c1024_i32
  v12
def k0_off2 (k0_t2 : Fin k0_t2_loop.trips) : Fin 3 → Nat :=
  let c0_11 : Index := 0#32
  let c0_i32_2 : BitVec 32 := 0#32
  let c1_i32_4 : BitVec 32 := 1#32
  let arg5 : BitVec 32 := Scf.iv c0_i32_2 c1_i32_4 k0_t2
  let c1024_i32 : BitVec 32 := 1024#32
  let v12 : BitVec 32 := Scalar.muli arg5 c1024_i32
  let v13 : BitVec 32 := v12
  let v14 : Index := Scalar.indexCast v13
  let c0_12 : Index := 0#32
  ![0, v14.toNat, 0]
def k0_off3 (k0_t2 : Fin k0_t2_loop.trips) : Fin 3 → Nat :=
  let c0_20 : Index := 0#32
  let c0_i32_2 : BitVec 32 := 0#32
  let c1_i32_4 : BitVec 32 := 1#32
  let arg5 : BitVec 32 := Scf.iv c0_i32_2 c1_i32_4 k0_t2
  let c1024_i32 : BitVec 32 := 1024#32
  let v12 : BitVec 32 := Scalar.muli arg5 c1024_i32
  let v13 : BitVec 32 := v12
  let v37 : Index := Scalar.indexCast v13
  let c0_21 : Index := 0#32
  ![0, v37.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  h_S1x1024x256 : 0 < S1x1024x256.numel
  shapeCasts_S1x1024x256_S1024x256 : S1x1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  reduces_S1024x256_S256 : S1024x256.Reduces [0] S256
  shapeCasts_S256_S1x256 : S256.ShapeCasts S1x256
  broadcasts_S1x256_S1024x256 : S1x256.Broadcasts S1024x256
  h_S1x1024x1 : 0 < S1x1024x1.numel
  shapeCasts_S1x1024x1_S1024x1 : S1x1024x1.ShapeCasts S1024x1
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S8x1x1_S_d0_1_2 : S8x1x1.ReducesTo [0, 1, 2] S_
  h_S_ : 0 < S_.numel
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024x256.size a ≤ S1x4096x256.size a
  k0_t2_ok : k0_t2_loop.OK
  k0_mult2_dvd : ∀ k0_t2 : Fin k0_t2_loop.trips, 1024 ∣ (k0_mult2 k0_t2).toNat
  k0_off2_inb : ∀ k0_t2 : Fin k0_t2_loop.trips, ∀ a, (k0_off2 k0_t2) a + S1x1024x256.size a ≤ S1x4096x256.size a
  k0_off3_inb : ∀ k0_t2 : Fin k0_t2_loop.trips, ∀ a, (k0_off3 k0_t2) a + S1x1024x1.size a ≤ S1x4096x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x4096x256.size a
  hwx0_0 : ∀ i : grid0.Coords, EltTy.bits .f32 = 32 ∨ (Rect.block (s := S8x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S8x4096x1.size a
  hwx0_1 : ∀ i : grid0.Coords, EltTy.bits .f32 = 32 ∨ (Rect.block (s := S8x4096x1) S1x4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S8x4096x1 : Shape := ⟨3, ![8, 4096, 1]⟩
abbrev S_ : Shape := ⟨0, ![]⟩
abbrev S8x4096 : Shape := ⟨2, ![8, 4096]⟩
abbrev S8x256 : Shape := ⟨2, ![8, 256]⟩
abbrev S8x1x256 : Shape := ⟨3, ![8, 1, 256]⟩
abbrev S8x4096x4096 : Shape := ⟨3, ![8, 4096, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x1, .f32⟩
  | .hbm, ⟨2, _⟩ => ⟨S8x4096x256, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S8x4096x256, .f32⟩
  | .hbm, ⟨11, _⟩ => ⟨S8x4096x256, .f32⟩
  | .hbm, ⟨12, _⟩ => ⟨S_, .f32⟩
  | .hbm, ⟨13, _⟩ => ⟨S8x256, .f32⟩
  | .hbm, ⟨14, _⟩ => ⟨S8x1x256, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_call1_cst : Ref sig .tc := ⟨.hbm, 22, rfl⟩
abbrev main_call1_v0 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]

class Facts₀ : Prop where
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x256_0_1_2 : S8x4096x1.BroadcastsInDim S8x4096x256 (![0, 1, 2] : Fin 3 → Fin S8x4096x256.rank)
  reducesTo_S8x4096x256_S8x256_d1 : S8x4096x256.ReducesTo [1] S8x256
  bcast_S8x256_S8x1x256_0_2 : S8x256.BroadcastsInDim S8x1x256 (![0, 2] : Fin 2 → Fin S8x1x256.rank)
  reducesTo_S8x4096x4096_S_d0_1_2 : S8x4096x4096.ReducesTo [0, 1, 2] S_
  reducesTo_S8x4096x1_S_d0_1_2 : S8x4096x1.ReducesTo [0, 1, 2] S_
  dot_S8x4096x256_S8x1x256_S8x4096x1_2_2_1_1_0_0_wf : DotDims.WF S8x4096x256 S8x1x256 S8x4096x1 [2] [2] [1] [1] [0] [0]
  dot_S8x4096x256_S8x4096x256_S8x4096x4096_2_2_1_1_0_0_wf : DotDims.WF S8x4096x256 S8x4096x256 S8x4096x4096 [2] [2] [1] [1] [0] [0]

variable [Facts₀]

def dot_S8x4096x256_S8x1x256_S8x4096x1_2_2_1_1_0_0 : DotDims S8x4096x256 S8x1x256 S8x4096x1 where
  lhsContracting := [2]
  rhsContracting := [2]
  lhsNonContracting := [1]
  rhsNonContracting := [1]
  lhsBatch := [0]
  rhsBatch := [0]
  wf := dot_S8x4096x256_S8x1x256_S8x4096x1_2_2_1_1_0_0_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf

class Facts : Prop extends Facts₀ where

variable [Facts]
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.KReduce.lean ====
/-
  Sums along one axis of a [1024, 256] or [1024, 1] array, read at an index.

  A lane reduction of a [1024, 256] array over its second axis, kept as a [1024, 1] column, holds at row `r` the sum over
  the 256 columns; over its first axis, kept as a [1, 256] row, it holds at column `d` the sum over the 1024 rows; a
  [1024, 1] column summed over its rows and kept as a [1, 1] array holds that one sum.
-/
import Idealize.ShloMosaic.PureOps.Ideal.Laws
import Idealize.ShloMosaic.Lib.ValueIdx
import Idealize.ShloMosaic.Lib.Pipeline.Value
import Idealize.ShloMosaic.Lib.ValueLayout
import proofs.«150549_j72284299592193_2_alg».proof.Proof.LibKeepdims

noncomputable section

namespace Cert.Reduce

open Idealize.ShloMosaic Idealize.ShloMosaic.ValueIdx

abbrev T1024x256 : Shape := ⟨2, ![1024, 256]⟩
abbrev T1024x1 : Shape := ⟨2, ![1024, 1]⟩
abbrev T1024 : Shape := ⟨1, ![1024]⟩
abbrev T256 : Shape := ⟨1, ![256]⟩
abbrev T1x256 : Shape := ⟨2, ![1, 256]⟩
abbrev T1 : Shape := ⟨1, ![1]⟩
abbrev T1x1 : Shape := ⟨2, ![1, 1]⟩

/-- The sum over the columns of row `r`, kept as a column. -/
theorem rowSum_apply (w : FVec Ideal T1024x256 .f32) (hred : T1024x256.Reduces [1] T1024) (hφ : FKind.Formats .f32)
    (hacc : (0x00000000#32 : BitVec 32) = FKind.add.neutral .f32 hφ) (hc : T1024.ShapeCasts T1024x1) (r : Fin 1024) :
    shapeCast T1024x1 (multiReduction .add [1] T1024 w 0x00000000#32 hred hφ hacc) hc (ix2 r (0 : Fin 1))
      = ∑ e : Fin 256, w (ix2 r e) := by
  refine (Keepdims.shapeCast_a_a1_apply _ hc r).trans ?_
  refine (Ideal.multiReduction_add_single w 0x00000000#32 hred hφ hacc (ix1 r)).trans ?_
  refine Finset.sum_congr rfl fun e _ => congrArg w ?_
  funext a
  match a with
  | ⟨0, _⟩ => rfl
  | ⟨1, _⟩ => rfl

/-- The sum over the rows of column `d`, kept as a row. -/
theorem colSum_apply (w : FVec Ideal T1024x256 .f32) (hred : T1024x256.Reduces [0] T256) (hφ : FKind.Formats .f32)
    (hacc : (0x00000000#32 : BitVec 32) = FKind.add.neutral .f32 hφ) (hc : T256.ShapeCasts T1x256) (d : Fin 256) :
    shapeCast T1x256 (multiReduction .add [0] T256 w 0x00000000#32 hred hφ hacc) hc (ix2 (0 : Fin 1) d)
      = ∑ r : Fin 1024, w (ix2 r d) := by
  refine (shapeCast_a_1a_apply _ hc (0 : Fin 1) d).trans ?_
  refine (Ideal.multiReduction_add_single w 0x00000000#32 hred hφ hacc (ix1 d)).trans ?_
  refine Finset.sum_congr rfl fun r _ => congrArg w ?_
  funext a
  match a with
  | ⟨0, _⟩ => rfl
  | ⟨1, _⟩ => rfl

/-- The sum of a column's entries, kept as a [1, 1] array. -/
theorem colTotal_apply (w : FVec Ideal T1024x1 .f32) (hred : T1024x1.Reduces [0] T1) (hφ : FKind.Formats .f32)
    (hacc : (0x00000000#32 : BitVec 32) = FKind.add.neutral .f32 hφ) (hc : T1.ShapeCasts T1x1) :
    shapeCast T1x1 (multiReduction .add [0] T1 w 0x00000000#32 hred hφ hacc) hc (ix2 (0 : Fin 1) (0 : Fin 1))
      = ∑ r : Fin 1024, w (ix2 r (0 : Fin 1)) := by
  refine (shapeCast_a_1a_apply _ hc (0 : Fin 1) (0 : Fin 1)).trans ?_
  refine (Ideal.multiReduction_add_single w 0x00000000#32 hred hφ hacc (ix1 (0 : Fin 1))).trans ?_
  refine Finset.sum_congr rfl fun r _ => congrArg w ?_
  funext a
  match a with
  | ⟨0, _⟩ => rfl
  | ⟨1, _⟩ => rfl

end Cert.Reduce

end
-- ==== Proof.Spec.lean ====
/-
  The loss both programs compute, stated once over abstract finite index types.

  For features `x b n d` and scores `s b n` on the extended reals:
  * `unit x b n d` — row `n` of batch `b` divided by `max(‖row‖, ε)`;
  * `total x b d` — the sum over the rows `n` of the unit rows;
  * `sim x b n` — the inner product of unit row `n` with `total`;
  * `tgt x b n = 1 - max((sim - 1)/4095, 0)`, the target;
  * `row x s b n = tgt · max(log s, -100) + (1 - tgt) · max(log(1 - s), -100)`, one row's cross-entropy term (sign not yet applied).

  The kernel's arrangement sums `-row` and `sim` and divides afterwards; the reference's negates the mean of `row` and takes the
  mean of the full Gram matrix `∑ d, unit b n d · unit b m d` over all pairs `(n, m)`.  Float literals stay as the words both
  programs print.
-/
import Idealize.ShloMosaic.PureOps.Ideal.Laws
import Idealize.ShloMosaic.Lib.ValueIdx

noncomputable section

namespace Cert.Loss

open Idealize.ShloMosaic

/-- The words of the literals, as the extended reals they denote. -/
abbrev eps : EReal := Ideal.ofBits .f32 0x2B8CBCCC#32
abbrev one : EReal := Ideal.ofBits .f32 0x3F800000#32
abbrev c4095 : EReal := Ideal.ofBits .f32 0x457FF000#32
abbrev cm100 : EReal := Ideal.ofBits .f32 0xC2C80000#32
abbrev c32768 : EReal := Ideal.ofBits .f32 0x47000000#32
abbrev c2p27 : EReal := Ideal.ofBits .f32 0x4D000000#32

variable {B N D : Type} [Fintype B] [Fintype N] [Fintype D]

/-- The length of row `n` of batch `b`, floored at ε. -/
def nrm (x : B → N → D → EReal) (b : B) (n : N) : EReal := max (Ideal.sqrt (∑ e, x b n e * x b n e)) eps

/-- The row divided by its floored length. -/
def unit (x : B → N → D → EReal) (b : B) (n : N) (d : D) : EReal := Ideal.div (x b n d) (nrm x b n)

/-- The sum of a batch's unit rows. -/
def total (x : B → N → D → EReal) (b : B) (d : D) : EReal := ∑ n, unit x b n d

/-- The inner product of a unit row with the sum of all of them. -/
def sim (x : B → N → D → EReal) (b : B) (n : N) : EReal := ∑ d, unit x b n d * total x b d

/-- The target of row `n`. -/
def tgt (x : B → N → D → EReal) (b : B) (n : N) : EReal := one - max (Ideal.div (sim x b n - one) c4095) 0

/-- One row's cross-entropy term, before the sign. -/
def row (x : B → N → D → EReal) (s : B → N → EReal) (b : B) (n : N) : EReal :=
  tgt x b n * max (Ideal.log (s b n)) cm100 + (one - tgt x b n) * max (Ideal.log1p (-(s b n))) cm100

/-- The kernel's arrangement: the negated terms summed, the similarities summed, each divided afterwards. -/
def kernelLoss (x : B → N → D → EReal) (s : B → N → EReal) : EReal :=
  Ideal.div (∑ b, ∑ n, -(row x s b n)) c32768 + (one - Ideal.div (∑ b, ∑ n, sim x b n) c2p27)

/-- The reference's arrangement: the negated mean of the terms, and the mean of the whole Gram matrix. -/
def referenceLoss (x : B → N → D → EReal) (s : B → N → EReal) : EReal :=
  -(Ideal.div (∑ b, ∑ n, row x s b n) c32768)
    + (one - Ideal.div (∑ b, ∑ n, ∑ m, ∑ d, unit x b n d * unit x b m d) c2p27)

/-- The features array read by batch, row and column; the scores array by batch and row. -/
def feat (a : (⟨3, ![8, 4096, 256]⟩ : Shape).Idx → EReal) : Fin 8 → Fin 4096 → Fin 256 → EReal :=
  fun b n d => a (ValueIdx.ix3 b n d)

def score (a : (⟨3, ![8, 4096, 1]⟩ : Shape).Idx → EReal) : Fin 8 → Fin 4096 → EReal :=
  fun b n => a (ValueIdx.ix3 b n (0 : Fin 1))

end Cert.Loss

end
-- ==== Proof.KPay.lean ====
/-
  The kernel body's arithmetic, read at an index.

  One trip of either loop loads a chunk of 1024 rows.  Each row is divided by its length floored at ε (`unitRow`).
  The first loop adds, column by column, the sum of the chunk's unit rows to its carried row.  The second loop forms, for
  each row of the chunk, the inner product with the finished row of column sums, from it the target and the row's
  cross-entropy term, and adds the chunk's sums of the negated terms and of the inner products to its two carried scalars.
-/
import proofs.«150549_j72284299592193_2_alg».proof.Proof.Gen.KernelIdeal.Skeleton
import proofs.«150549_j72284299592193_2_alg».proof.Proof.KReduce
import proofs.«150549_j72284299592193_2_alg».proof.Proof.Spec

noncomputable section

namespace Cert.KernelIdeal.PayValue

open Cert.KernelIdeal Cert.KernelIdeal.Gen Idealize.ShloMosaic Idealize.ShloMosaic.ValueIdx

/-- A chunk's row `r` divided by its floored length, at column `d`. -/
def unitRow (v15 : Vec Ideal S1x1024x256 .f32) (r : Fin 1024) (d : Fin 256) : EReal :=
  Ideal.div (v15 (ix3 (0 : Fin 1) r d))
    (max (Ideal.sqrt (∑ e : Fin 256, v15 (ix3 (0 : Fin 1) r e) * v15 (ix3 (0 : Fin 1) r e))) Cert.Loss.eps)

/-- The chunk without its leading unit axis. -/
def rows (v15 : Vec Ideal S1x1024x256 .f32) : FVec Ideal S1024x256 .f32 :=
  shapeCast S1024x256 v15 shapeCasts_S1x1024x256_S1024x256

theorem rows_apply (v15 : Vec Ideal S1x1024x256 .f32) (r : Fin 1024) (d : Fin 256) :
    rows v15 (ix2 r d) = v15 (ix3 (0 : Fin 1) r d) :=
  shapeCast_1ab_ab_apply v15 shapeCasts_S1x1024x256_S1024x256 r d

/-- The column of floored row lengths. -/
def lengths (v15 : Vec Ideal S1x1024x256 .f32) : FVec Ideal S1024x1 .f32 :=
  maximumf
    (sqrt (shapeCast S1024x1
      (multiReduction .add [1] S1024 (mulf (rows v15) (rows v15)) 0x00000000#32 reduces_S1024x256_S1024 (.inl rfl) rfl)
      shapeCasts_S1024_S1024x1))
    (broadcast S1024x1 (Scalar.ofBits .f32 0x2B8CBCCC#32))

theorem lengths_apply (v15 : Vec Ideal S1x1024x256 .f32) (r : Fin 1024) :
    lengths v15 (ix2 r (0 : Fin 1))
      = max (Ideal.sqrt (∑ e : Fin 256, v15 (ix3 (0 : Fin 1) r e) * v15 (ix3 (0 : Fin 1) r e))) Cert.Loss.eps := by
  show max (Ideal.sqrt (shapeCast S1024x1
      (multiReduction .add [1] S1024 (mulf (rows v15) (rows v15)) 0x00000000#32 reduces_S1024x256_S1024 (.inl rfl) rfl)
      shapeCasts_S1024_S1024x1 (ix2 r (0 : Fin 1)))) Cert.Loss.eps = _
  refine congrArg (fun z => max (Ideal.sqrt z) Cert.Loss.eps) ?_
  refine (Cert.Reduce.rowSum_apply (mulf (rows v15) (rows v15)) reduces_S1024x256_S1024 (.inl rfl) rfl shapeCasts_S1024_S1024x1 r).trans ?_
  refine Finset.sum_congr rfl fun e _ => ?_
  show rows v15 (ix2 r e) * rows v15 (ix2 r e) = _
  rw [rows_apply]

/-- The chunk with every row divided by its floored length, as the body computes it. -/
def normed (v15 : Vec Ideal S1x1024x256 .f32) : FVec Ideal S1024x256 .f32 :=
  divf (rows v15) (broadcastTo S1024x256 (lengths v15) broadcasts_S1024x1_S1024x256)

theorem normed_apply (v15 : Vec Ideal S1x1024x256 .f32) (r : Fin 1024) (d : Fin 256) :
    normed v15 (ix2 r d) = unitRow v15 r d := by
  show Ideal.div (rows v15 (ix2 r d)) (broadcastTo S1024x256 (lengths v15) broadcasts_S1024x1_S1024x256 (ix2 r d)) = _
  rw [rows_apply, Keepdims.broadcastTo_a1_ab_apply, lengths_apply]
  rfl

/-- The first loop's trip: the carried row plus the column sums of the chunk's unit rows. -/
theorem pay2_apply (acc : FVec Ideal S1x256 .f32) (v15 : Vec Ideal S1x1024x256 .f32) (d : Fin 256) :
    k0_pay2 acc v15 (ix2 (0 : Fin 1) d) = acc (ix2 (0 : Fin 1) d) + ∑ r : Fin 1024, unitRow v15 r d := by
  show acc (ix2 (0 : Fin 1) d) + shapeCast S1x256
      (multiReduction .add [0] S256 (normed v15) 0x00000000#32 reduces_S1024x256_S256 (.inl rfl) rfl) shapeCasts_S256_S1x256
      (ix2 (0 : Fin 1) d) = _
  refine congrArg (fun z => acc (ix2 (0 : Fin 1) d) + z) ?_
  refine (Cert.Reduce.colSum_apply (normed v15) reduces_S1024x256_S256 (.inl rfl) rfl shapeCasts_S256_S1x256 d).trans ?_
  exact Finset.sum_congr rfl fun r _ => normed_apply v15 r d

/-- The inner product of the chunk's unit row `r` with the row `v2`. -/
theorem pay8_apply (v2 : FVec Ideal S1x256 .f32) (v15 : Vec Ideal S1x1024x256 .f32) (r : Fin 1024) :
    k0_pay8 v2 v15 (ix2 r (0 : Fin 1)) = ∑ d : Fin 256, unitRow v15 r d * v2 (ix2 (0 : Fin 1) d) := by
  show shapeCast S1024x1
      (multiReduction .add [1] S1024 (mulf (normed v15) (broadcastTo S1024x256 v2 broadcasts_S1x256_S1024x256))
        0x00000000#32 reduces_S1024x256_S1024 (.inl rfl) rfl) shapeCasts_S1024_S1024x1 (ix2 r (0 : Fin 1)) = _
  refine (Cert.Reduce.rowSum_apply (mulf (normed v15) (broadcastTo S1024x256 v2 broadcasts_S1x256_S1024x256))
    reduces_S1024x256_S1024 (.inl rfl) rfl shapeCasts_S1024_S1024x1 r).trans ?_
  refine Finset.sum_congr rfl fun d _ => ?_
  show normed v15 (ix2 r d) * broadcastTo S1024x256 v2 broadcasts_S1x256_S1024x256 (ix2 r d) = _
  rw [normed_apply, broadcastTo_1b_ab_apply]

/-- A row's target and cross-entropy term from its inner product `p` and its score `s`. -/
def rowTerm (p s : EReal) : EReal :=
  (Cert.Loss.one - max (Ideal.div (p - Cert.Loss.one) Cert.Loss.c4095) (Ideal.ofBits .f32 0x00000000#32))
      * max (Ideal.log s) Cert.Loss.cm100
    + (Cert.Loss.one - (Cert.Loss.one - max (Ideal.div (p - Cert.Loss.one) Cert.Loss.c4095) (Ideal.ofBits .f32 0x00000000#32)))
      * max (Ideal.log1p (Ideal.ofBits .f32 0x00000000#32 - s)) Cert.Loss.cm100

theorem pay9_apply (v2 : FVec Ideal S1x256 .f32) (v15 : Vec Ideal S1x1024x256 .f32) (v38 : Vec Ideal S1x1024x1 .f32) (r : Fin 1024) :
    k0_pay9 v2 v15 v38 (ix2 r (0 : Fin 1))
      = rowTerm (k0_pay8 v2 v15 (ix2 r (0 : Fin 1))) (v38 (ix3 (0 : Fin 1) r (0 : Fin 1))) := by
  have e : k0_pay9 v2 v15 v38 (ix2 r (0 : Fin 1))
      = rowTerm (k0_pay8 v2 v15 (ix2 r (0 : Fin 1))) (shapeCast S1024x1 v38 shapeCasts_S1x1024x1_S1024x1 (ix2 r (0 : Fin 1))) := rfl
  rw [e, shapeCast_1ab_ab_apply]

/-- The second loop's first carried scalar: plus the chunk's sum of the negated terms. -/
theorem pay4_apply (acc : FVec Ideal S1x1 .f32) (v52 v53 : FVec Ideal S1024x1 .f32) :
    k0_pay4 acc v52 v53 (ix2 (0 : Fin 1) (0 : Fin 1))
      = acc (ix2 (0 : Fin 1) (0 : Fin 1)) + ∑ r : Fin 1024, (v53 (ix2 r (0 : Fin 1)) - v52 (ix2 r (0 : Fin 1))) := by
  show acc (ix2 (0 : Fin 1) (0 : Fin 1)) + shapeCast S1x1
      (multiReduction .add [0] S1 (subf v53 v52) 0x00000000#32 reduces_S1024x1_S1 (.inl rfl) rfl) shapeCasts_S1_S1x1
      (ix2 (0 : Fin 1) (0 : Fin 1)) = _
  refine congrArg (fun z => acc (ix2 (0 : Fin 1) (0 : Fin 1)) + z) ?_
  exact Cert.Reduce.colTotal_apply (subf v53 v52) reduces_S1024x1_S1 (.inl rfl) rfl shapeCasts_S1_S1x1

/-- Its second carried scalar: plus the chunk's sum of the inner products. -/
theorem pay5_apply (acc : FVec Ideal S1x1 .f32) (v28 : FVec Ideal S1024x1 .f32) :
    k0_pay5 acc v28 (ix2 (0 : Fin 1) (0 : Fin 1))
      = acc (ix2 (0 : Fin 1) (0 : Fin 1)) + ∑ r : Fin 1024, v28 (ix2 r (0 : Fin 1)) := by
  show acc (ix2 (0 : Fin 1) (0 : Fin 1)) + shapeCast S1x1
      (multiReduction .add [0] S1 v28 0x00000000#32 reduces_S1024x1_S1 (.inl rfl) rfl) shapeCasts_S1_S1x1
      (ix2 (0 : Fin 1) (0 : Fin 1)) = _
  refine congrArg (fun z => acc (ix2 (0 : Fin 1) (0 : Fin 1)) + z) ?_
  exact Cert.Reduce.colTotal_apply v28 reduces_S1024x1_S1 (.inl rfl) rfl shapeCasts_S1_S1x1

/-- The stored blocks: the carried scalars with a unit axis in front. -/
theorem pay6_apply (v : FVec Ideal S1x1 .f32) : k0_pay6 v (ix3 (0 : Fin 1) (0 : Fin 1) (0 : Fin 1)) = v (ix2 (0 : Fin 1) (0 : Fin 1)) := by
  have e : k0_pay6 v = shapeCast S1x1x1 v shapeCasts_S1x1_S1x1x1 := rfl
  rw [e, shapeCast_ab_1ab_apply]

theorem pay7_apply (v : FVec Ideal S1x1 .f32) : k0_pay7 v (ix3 (0 : Fin 1) (0 : Fin 1) (0 : Fin 1)) = v (ix2 (0 : Fin 1) (0 : Fin 1)) := by
  have e : k0_pay7 v = shapeCast S1x1x1 v shapeCasts_S1x1_S1x1x1 := rfl
  rw [e, shapeCast_ab_1ab_apply]

/-- The loops' initial values are zero. -/
theorem pay1_apply (d : Fin 256) : k0_pay1 (F := Ideal) (ix2 (0 : Fin 1) d) = 0 := by
  show Ideal.ofBits .f32 0x00000000#32 = 0
  exact Ideal.ofBits_zero_f32

theorem pay3_apply : k0_pay3 (F := Ideal) (ix2 (0 : Fin 1) (0 : Fin 1)) = 0 := by
  show Ideal.ofBits .f32 0x00000000#32 = 0
  exact Ideal.ofBits_zero_f32

theorem pay10_apply (r : Fin 1024) : k0_pay10 (F := Ideal) (ix2 r (0 : Fin 1)) = 0 := by
  show Ideal.ofBits .f32 0x00000000#32 = 0
  exact Ideal.ofBits_zero_f32

end Cert.KernelIdeal.PayValue

end
-- ==== Proof.KLoops.lean ====
/-
  The two loops of the kernel body, in closed form.

  The body holds one batch: 4096 rows of 256 columns and 4096 scores.  Both loops run over four chunks of 1024 rows.
  The first carries a row of 256 column sums: after `n` trips it holds, at column `d`, the sum over the first `1024 n`
  rows of the unit rows; after the last trip this is `total`.  The second carries two scalars: the sum over the rows seen so
  far of the negated cross-entropy terms, and of the inner products `sim`.  Sums over the rows seen so far are written over
  `Finset.range (1024 n)` of a function of the row number that is `0` past the last row, so that a trip's chunk is the next
  1024 numbers.
-/
import proofs.«150549_j72284299592193_2_alg».proof.Proof.Gen.KernelIdeal.Frame
import proofs.«150549_j72284299592193_2_alg».proof.Proof.KPay

noncomputable section

namespace Cert.KernelIdeal.LoopValue

open Cert.KernelIdeal Cert.KernelIdeal.Gen Cert.KernelIdeal.PayValue Idealize.ShloMosaic Idealize.ShloMosaic.ValueIdx
open Idealize.ShloMosaic.TcCoe Idealize.SL.Sem

/-- The batch a body holds, read by row and column (the leading axis has one entry). -/
def bx (x0 : Vec Ideal S1x4096x256 .f32) : Fin 1 → Fin 4096 → Fin 256 → EReal := fun _ n d => x0 (ix3 (0 : Fin 1) n d)
def bs (x1 : Vec Ideal S1x4096x1 .f32) : Fin 1 → Fin 4096 → EReal := fun _ n => x1 (ix3 (0 : Fin 1) n (0 : Fin 1))

/-- A function of a row, extended by zero to every natural number. -/
def ext (g : Fin 4096 → EReal) (j : ℕ) : EReal := if h : j < 4096 then g ⟨j, h⟩ else 0

theorem ext_val (g : Fin 4096 → EReal) (n : Fin 4096) : ext g n.val = g n := by
  unfold ext; rw [dif_pos n.isLt]

/-- The sum over all rows is the sum of the extension over the first 4096 numbers. -/
theorem sum_ext (g : Fin 4096 → EReal) : ∑ j ∈ Finset.range 4096, ext g j = ∑ n : Fin 4096, g n := by
  rw [Finset.sum_range]; exact Finset.sum_congr rfl fun n _ => ext_val g n

/-- One more chunk: the next 1024 numbers. -/
theorem sum_chunk (G : ℕ → EReal) (n : ℕ) :
    ∑ j ∈ Finset.range (1024 * (n + 1)), G j = ∑ j ∈ Finset.range (1024 * n), G j + ∑ r : Fin 1024, G (1024 * n + r.val) := by
  rw [show 1024 * (n + 1) = 1024 * n + 1024 from by ring, Finset.sum_range_add]
  exact congrArg _ (Finset.sum_range fun r => G (1024 * n + r))

theorem trips1 : k0_t1_loop.trips = 4 := by decide +kernel
theorem trips2 : k0_t2_loop.trips = 4 := by decide +kernel

section
variable (c : Dev nD) (i : grid0.Coords) (a1 : Memref sig .tc .vmem S1x4096x256 .f32) (h1 : a1.IsWhole)
  (a2 : Memref sig .tc .vmem S1x4096x1 .f32) (h2 : a2.IsWhole) (a3 : Memref sig .tc .vmem S1x1x1 .f32) (h3 : a3.IsWhole)
  (a4 : Memref sig .tc .vmem S1x1x1 .f32) (h4 : a4.IsWhole) (x0 : Vec Ideal S1x4096x256 .f32) (x1 : Vec Ideal S1x4096x1 .f32)

/-- What a trip of the first loop yields: the payload of the carried row and the chunk it loads. -/
theorem trip1_eq (k : Fin k0_t1_loop.trips) (acc : FVec Ideal S1x256 .f32) :
    tripR_k0_t1 (F := Ideal) Variants.none c none i a1 h1 a2 h2 a3 h3 a4 h4 (h1.unread x0) k acc
      = k0_pay2 acc (View.readAt (Elt Ideal) a1.view
          (Rect.unit (s := S1x4096x256) (k0_off1 k) S1x1024x256.size (k0_off1_inb k)).toLoadRect (h1.unread x0)) := by
  unfold tripR_k0_t1 trip_k0_t1
  rfl

/-- What a trip of the second loop yields. -/
theorem trip2_eq (v2 : FVec Ideal S1x256 .f32) (k : Fin k0_t2_loop.trips) (acc : FVec Ideal S1x1 .f32 × FVec Ideal S1x1 .f32) :
    tripR_k0_t2 (F := Ideal) Variants.none c none i a1 h1 a2 h2 a3 h3 a4 h4 v2 (h1.unread x0) (h2.unread x1) k acc
      = (k0_pay4 acc.1
            (k0_pay9 v2
              (View.readAt (Elt Ideal) a1.view (Rect.unit (s := S1x4096x256) (k0_off2 k) S1x1024x256.size (k0_off2_inb k)).toLoadRect (h1.unread x0))
              (View.readAt (Elt Ideal) a2.view (Rect.unit (s := S1x4096x1) (k0_off3 k) S1x1024x1.size (k0_off3_inb k)).toLoadRect (h2.unread x1)))
            k0_pay10,
          k0_pay5 acc.2
            (k0_pay8 v2
              (View.readAt (Elt Ideal) a1.view (Rect.unit (s := S1x4096x256) (k0_off2 k) S1x1024x256.size (k0_off2_inb k)).toLoadRect (h1.unread x0)))) := by
  unfold tripR_k0_t2 trip_k0_t2
  dsimp only
  sl_unfold_words
  rfl

/-- A loaded chunk of the features, at row `r` and column `d`: row `off + r` of the batch. -/
theorem chunk_apply (off : Fin 3 → ℕ) (inb : ∀ a, off a + S1x1024x256.size a ≤ S1x4096x256.size a) (q : ℕ) (hoff : off = ![0, q, 0])
    (r : Fin 1024) (d : Fin 256) (hq : q + r.val < 4096) :
    View.readAt (Elt Ideal) a1.view (Rect.unit (s := S1x4096x256) off S1x1024x256.size inb).toLoadRect (h1.unread x0)
        (ix3 (0 : Fin 1) r d) = x0 (ix3 (0 : Fin 1) ⟨q + r.val, hq⟩ d) := by
  subst hoff
  rw [View.readAt_eq_ld, h1.read_unread]
  show x0 _ = x0 _
  refine congrArg x0 (funext fun a => Fin.ext ?_)
  match a with
  | ⟨0, _⟩ => rfl
  | ⟨1, _⟩ => show q + 1 * r.val = q + r.val; omega
  | ⟨2, _⟩ => show 0 + 1 * d.val = d.val; omega

/-- A loaded chunk of the scores. -/
theorem chunkS_apply (off : Fin 3 → ℕ) (inb : ∀ a, off a + S1x1024x1.size a ≤ S1x4096x1.size a) (q : ℕ) (hoff : off = ![0, q, 0])
    (r : Fin 1024) (hq : q + r.val < 4096) :
    View.readAt (Elt Ideal) a2.view (Rect.unit (s := S1x4096x1) off S1x1024x1.size inb).toLoadRect (h2.unread x1)
        (ix3 (0 : Fin 1) r (0 : Fin 1)) = x1 (ix3 (0 : Fin 1) ⟨q + r.val, hq⟩ (0 : Fin 1)) := by
  subst hoff
  rw [View.readAt_eq_ld, h2.read_unread]
  show x1 _ = x1 _
  refine congrArg x1 (funext fun a => Fin.ext ?_)
  match a with
  | ⟨0, _⟩ => rfl
  | ⟨1, _⟩ => show q + 1 * r.val = q + r.val; omega
  | ⟨2, _⟩ => rfl

/-- The unit row of a loaded chunk is the unit row of the batch at that row. -/
theorem unitRow_chunk (off : Fin 3 → ℕ) (inb : ∀ a, off a + S1x1024x256.size a ≤ S1x4096x256.size a) (q : ℕ) (hoff : off = ![0, q, 0])
    (r : Fin 1024) (d : Fin 256) (hq : q + r.val < 4096) :
    unitRow (View.readAt (Elt Ideal) a1.view (Rect.unit (s := S1x4096x256) off S1x1024x256.size inb).toLoadRect (h1.unread x0)) r d
      = Cert.Loss.unit (bx x0) 0 ⟨q + r.val, hq⟩ d := by
  unfold unitRow Cert.Loss.unit Cert.Loss.nrm bx
  rw [chunk_apply a1 h1 x0 off inb q hoff r d hq]
  refine congrArg (fun z => Ideal.div _ (max (Ideal.sqrt z) _)) ?_
  exact Finset.sum_congr rfl fun e _ => by rw [chunk_apply a1 h1 x0 off inb q hoff r e hq]

/-- The negated term of a row from its inner product and score, in the loss's own words. -/
theorem neg_rowTerm (x : Fin 1 → Fin 4096 → Fin 256 → EReal) (s : Fin 1 → Fin 4096 → EReal) (n : Fin 4096) :
    (0 : EReal) - rowTerm (Cert.Loss.sim x 0 n) (s 0 n) = -(Cert.Loss.row x s 0 n) := by
  unfold rowTerm Cert.Loss.row Cert.Loss.tgt
  rw [Ideal.ofBits_zero_f32, zero_sub, zero_sub]

/-- The carried row of column sums before trip `n` of the first loop. -/
def colSums (n : ℕ) : FVec Ideal S1x256 .f32 :=
  st_k0_t1 (F := Ideal) Variants.none c none i a1 h1 a2 h2 a3 h3 a4 h4 (h1.unread x0) (k0_pay1 (F := Ideal)) n

theorem colSums_apply : ∀ n : ℕ, n ≤ 4 → ∀ d : Fin 256,
    colSums c i a1 h1 a2 h2 a3 h3 a4 h4 x0 n (ix2 (0 : Fin 1) d)
      = ∑ j ∈ Finset.range (1024 * n), ext (fun q => Cert.Loss.unit (bx x0) 0 q d) j
  | 0, _, d => by
    show k0_pay1 (F := Ideal) (ix2 (0 : Fin 1) d) = _
    rw [pay1_apply]; simp
  | n + 1, hn, d => by
    have hk : n < k0_t1_loop.trips := by rw [trips1]; omega
    have e := st_k0_t1_succ (F := Ideal) Variants.none c none i a1 h1 a2 h2 a3 h3 a4 h4 (h1.unread x0) (k0_pay1 (F := Ideal)) ⟨n, hk⟩
    have e' : colSums c i a1 h1 a2 h2 a3 h3 a4 h4 x0 (n + 1)
        = k0_pay2 (colSums c i a1 h1 a2 h2 a3 h3 a4 h4 x0 n) (View.readAt (Elt Ideal) a1.view
          (Rect.unit (s := S1x4096x256) (k0_off1 ⟨n, hk⟩) S1x1024x256.size (k0_off1_inb ⟨n, hk⟩)).toLoadRect (h1.unread x0)) :=
      e.trans (trip1_eq c i a1 h1 a2 h2 a3 h3 a4 h4 x0 ⟨n, hk⟩ _)
    rw [e', pay2_apply, sum_chunk, colSums_apply n (by omega) d]
    refine congrArg _ (Finset.sum_congr rfl fun r _ => ?_)
    have hq : 1024 * n + r.val < 4096 := by have := r.isLt; omega
    rw [unitRow_chunk a1 h1 x0 _ _ (1024 * n) (k0_off1_eq ⟨n, hk⟩) r d hq]
    exact (ext_val (fun q => Cert.Loss.unit (bx x0) 0 q d) ⟨1024 * n + r.val, hq⟩).symm

/-- After the last trip the carried row is the sum of the batch's unit rows. -/
theorem colSums_final (d : Fin 256) :
    colSums c i a1 h1 a2 h2 a3 h3 a4 h4 x0 4 (ix2 (0 : Fin 1) d) = Cert.Loss.total (bx x0) 0 d := by
  rw [colSums_apply c i a1 h1 a2 h2 a3 h3 a4 h4 x0 4 (le_refl 4) d]
  exact sum_ext _

/-- The two carried scalars before trip `n` of the second loop, run with the finished row of column sums. -/
def scalars (n : ℕ) : FVec Ideal S1x1 .f32 × FVec Ideal S1x1 .f32 :=
  st_k0_t2 (F := Ideal) Variants.none c none i a1 h1 a2 h2 a3 h3 a4 h4 (colSums c i a1 h1 a2 h2 a3 h3 a4 h4 x0 4)
    (h1.unread x0) (h2.unread x1) (k0_pay3 (F := Ideal), k0_pay3 (F := Ideal)) n

theorem scalars_apply : ∀ n : ℕ, n ≤ 4 →
    (scalars c i a1 h1 a2 h2 a3 h3 a4 h4 x0 x1 n).1 (ix2 (0 : Fin 1) (0 : Fin 1))
        = ∑ j ∈ Finset.range (1024 * n), ext (fun q => -(Cert.Loss.row (bx x0) (bs x1) 0 q)) j
      ∧ (scalars c i a1 h1 a2 h2 a3 h3 a4 h4 x0 x1 n).2 (ix2 (0 : Fin 1) (0 : Fin 1))
        = ∑ j ∈ Finset.range (1024 * n), ext (fun q => Cert.Loss.sim (bx x0) 0 q) j
  | 0, _ => by
    constructor
    · show k0_pay3 (F := Ideal) (ix2 (0 : Fin 1) (0 : Fin 1)) = _
      rw [pay3_apply]; simp
    · show k0_pay3 (F := Ideal) (ix2 (0 : Fin 1) (0 : Fin 1)) = _
      rw [pay3_apply]; simp
  | n + 1, hn => by
    have hk : n < k0_t2_loop.trips := by rw [trips2]; omega
    obtain ⟨ih1, ih2⟩ := scalars_apply n (by omega)
    have e := st_k0_t2_succ (F := Ideal) Variants.none c none i a1 h1 a2 h2 a3 h3 a4 h4 (colSums c i a1 h1 a2 h2 a3 h3 a4 h4 x0 4)
      (h1.unread x0) (h2.unread x1) (k0_pay3 (F := Ideal), k0_pay3 (F := Ideal)) ⟨n, hk⟩
    have e' := e.trans (trip2_eq c i a1 h1 a2 h2 a3 h3 a4 h4 x0 x1 (colSums c i a1 h1 a2 h2 a3 h3 a4 h4 x0 4) ⟨n, hk⟩ _)
    -- the inner product of row `1024 n + r` with the finished column sums
    have hsim : ∀ (r : Fin 1024) (hq : 1024 * n + r.val < 4096),
        k0_pay8 (colSums c i a1 h1 a2 h2 a3 h3 a4 h4 x0 4) (View.readAt (Elt Ideal) a1.view
          (Rect.unit (s := S1x4096x256) (k0_off2 ⟨n, hk⟩) S1x1024x256.size (k0_off2_inb ⟨n, hk⟩)).toLoadRect (h1.unread x0))
          (ix2 r (0 : Fin 1)) = Cert.Loss.sim (bx x0) 0 ⟨1024 * n + r.val, hq⟩ := by
      intro r hq
      rw [pay8_apply]
      unfold Cert.Loss.sim
      refine Finset.sum_congr rfl fun d _ => ?_
      rw [unitRow_chunk a1 h1 x0 _ _ (1024 * n) (k0_off2_eq ⟨n, hk⟩) r d hq, colSums_final]
    constructor
    · have e1 := congrArg (fun p => p.1 (ix2 (0 : Fin 1) (0 : Fin 1))) e'
      refine e1.trans ?_
      show k0_pay4 _ _ _ (ix2 (0 : Fin 1) (0 : Fin 1)) = _
      rw [pay4_apply, sum_chunk]
      refine congr (congrArg _ ih1) (Finset.sum_congr rfl fun r _ => ?_)
      have hq : 1024 * n + r.val < 4096 := by have := r.isLt; omega
      rw [pay10_apply, pay9_apply, hsim r hq, chunkS_apply a2 h2 x1 _ _ (1024 * n) (k0_off3_eq ⟨n, hk⟩) r hq]
      exact (neg_rowTerm (bx x0) (bs x1) ⟨1024 * n + r.val, hq⟩).trans
        (ext_val (fun q => -(Cert.Loss.row (bx x0) (bs x1) 0 q)) ⟨1024 * n + r.val, hq⟩).symm
    · have e2 := congrArg (fun p => p.2 (ix2 (0 : Fin 1) (0 : Fin 1))) e'
      refine e2.trans ?_
      show k0_pay5 _ _ (ix2 (0 : Fin 1) (0 : Fin 1)) = _
      rw [pay5_apply, sum_chunk]
      refine congr (congrArg _ ih2) (Finset.sum_congr rfl fun r _ => ?_)
      have hq : 1024 * n + r.val < 4096 := by have := r.isLt; omega
      rw [hsim r hq]
      exact (ext_val (fun q => Cert.Loss.sim (bx x0) 0 q) ⟨1024 * n + r.val, hq⟩).symm

/-- After the last trip: the batch's sum of negated terms, and its sum of inner products. -/
theorem scalars_final :
    (scalars c i a1 h1 a2 h2 a3 h3 a4 h4 x0 x1 4).1 (ix2 (0 : Fin 1) (0 : Fin 1)) = ∑ n : Fin 4096, -(Cert.Loss.row (bx x0) (bs x1) 0 n)
      ∧ (scalars c i a1 h1 a2 h2 a3 h3 a4 h4 x0 x1 4).2 (ix2 (0 : Fin 1) (0 : Fin 1)) = ∑ n : Fin 4096, Cert.Loss.sim (bx x0) 0 n := by
  obtain ⟨e1, e2⟩ := scalars_apply c i a1 h1 a2 h2 a3 h3 a4 h4 x0 x1 4 (le_refl 4)
  exact ⟨e1.trans (sum_ext _), e2.trans (sum_ext _)⟩

end

end Cert.KernelIdeal.LoopValue

end
-- ==== Proof.KBody.lean ====
/-
  What one grid point leaves in its two output blocks.

  The body stores, after its second loop, the two carried scalars as [1, 1, 1] blocks.  So the block of the first output
  holds the batch's sum of negated cross-entropy terms and the block of the second the batch's sum of inner products,
  both as functions of the batch of features and scores the point was given.
-/
import proofs.«150549_j72284299592193_2_alg».proof.Proof.KLoops

noncomputable section

namespace Cert.KernelIdeal.BodyValue

open Cert.KernelIdeal Cert.KernelIdeal.Gen Cert.KernelIdeal.PayValue Cert.KernelIdeal.LoopValue
open Idealize.ShloMosaic Idealize.ShloMosaic.ValueIdx Idealize.ShloMosaic.TcCoe Idealize.SL.Sem

theorem hz3 : (![0, 0, 0] : Fin 3 → Nat) = fun _ => 0 := funext fun a => by fin_cases a <;> rfl

section
variable (c : Dev nD) (i : grid0.Coords) (a1 : Memref sig .tc .vmem S1x4096x256 .f32) (h1 : a1.IsWhole)
  (a2 : Memref sig .tc .vmem S1x4096x1 .f32) (h2 : a2.IsWhole) (a3 : Memref sig .tc .vmem S1x1x1 .f32) (h3 : a3.IsWhole)
  (a4 : Memref sig .tc .vmem S1x1x1 .f32) (h4 : a4.IsWhole) (x0 : Vec Ideal S1x4096x256 .f32) (x1 : Vec Ideal S1x4096x1 .f32)

/-- The first output block: the second loop's first scalar after its last trip. -/
theorem out2_eq :
    out0_A_2 (F := Ideal) c i a1 h1 a2 h2 a3 h3 a4 h4 x0 x1
      = k0_pay6 (scalars c i a1 h1 a2 h2 a3 h3 a4 h4 x0 x1 4).1 := by
  unfold out0_A_2
  rw [View.read_writes_eq_canon _ _ _ (cover0_A_2 c i a1 h1 a2 h2 a3 h3 a4 h4 x0 x1)]
  unfold kernelRun0_A
  dsimp only
  rw [View.canon_unit_zero hz3]
  have t1 : Scf.trips (0#32) (Scalar.addi 0#32 4#32) 1#32 = 4 := trips1
  rw [t1]
  rfl

/-- The second output block: the second scalar. -/
theorem out3_eq :
    out0_A_3 (F := Ideal) c i a1 h1 a2 h2 a3 h3 a4 h4 x0 x1
      = k0_pay7 (scalars c i a1 h1 a2 h2 a3 h3 a4 h4 x0 x1 4).2 := by
  unfold out0_A_3
  rw [View.read_writes_eq_canon _ _ _ (cover0_A_3 c i a1 h1 a2 h2 a3 h3 a4 h4 x0 x1)]
  unfold kernelRun0_A
  dsimp only
  rw [View.canon_unit_zero hz3]
  have t1 : Scf.trips (0#32) (Scalar.addi 0#32 4#32) 1#32 = 4 := trips1
  rw [t1]
  rfl

theorem out2_apply :
    out0_A_2 (F := Ideal) c i a1 h1 a2 h2 a3 h3 a4 h4 x0 x1 (ix3 (0 : Fin 1) (0 : Fin 1) (0 : Fin 1))
      = ∑ n : Fin 4096, -(Cert.Loss.row (bx x0) (bs x1) 0 n) := by
  rw [out2_eq, pay6_apply]
  exact (scalars_final c i a1 h1 a2 h2 a3 h3 a4 h4 x0 x1).1

theorem out3_apply :
    out0_A_3 (F := Ideal) c i a1 h1 a2 h2 a3 h3 a4 h4 x0 x1 (ix3 (0 : Fin 1) (0 : Fin 1) (0 : Fin 1))
      = ∑ n : Fin 4096, Cert.Loss.sim (bx x0) 0 n := by
  rw [out3_eq, pay7_apply]
  exact (scalars_final c i a1 h1 a2 h2 a3 h3 a4 h4 x0 x1).2

end

/-- At grid point `t`: the two blocks as functions of the point's input blocks. -/
theorem outsAt_apply (m : (ℓ : Loc nD τ sig) → Buf (Elt Ideal) ℓ) (c : Dev nD) (t : Fin cfg0.N) :
    (outsAt0 m c t).1 (ix3 (0 : Fin 1) (0 : Fin 1) (0 : Fin 1))
        = ∑ n : Fin 4096, -(Cert.Loss.row (bx (iblk m c 0 t)) (bs (iblk m c 1 t)) 0 n)
      ∧ (outsAt0 m c t).2 (ix3 (0 : Fin 1) (0 : Fin 1) (0 : Fin 1))
        = ∑ n : Fin 4096, Cert.Loss.sim (bx (iblk m c 0 t)) 0 n := by
  unfold outsAt0
  exact ⟨out2_apply c (grid0.coords t) (ms0_0 t) (hs0_0 t) (ms0_1 t) (hs0_1 t) (ms0_2 t) (hs0_2 t) (ms0_3 t) (hs0_3 t) (iblk m c 0 t) (iblk m c 1 t),
    out3_apply c (grid0.coords t) (ms0_0 t) (hs0_0 t) (ms0_1 t) (hs0_1 t) (ms0_2 t) (hs0_2 t) (ms0_3 t) (hs0_3 t) (iblk m c 0 t) (iblk m c 1 t)⟩

end Cert.KernelIdeal.BodyValue

end
-- ==== Proof.KArray.lean ====
/-
  The kernel's two output arrays after the run, and what the operations after the region make of them.

  The grid has one point per batch. At point `t` each window's block index is `(t, 0, 0)`: the input windows read batch
  `t` of the features and of the scores whole (`iblk0_apply`, `iblk1_apply`), and each output window writes back a block
  of one entry to entry `(t, 0, 0)` of its array. Every entry of an output array therefore lies in exactly the block of
  the point with its batch number, and after the run entry `b` holds what point `b` left in its block (`arr2_apply`,
  `arr3_apply`). The operations after the region sum each array over all its entries from the zero word, which over
  the extended reals is the sum over the batches, divide the first sum by 32768 and the second by 2^27, and return
  the first quotient plus one minus the second (`tail_eq`; over the points' blocks, `tail_outs_eq`). The result buffer
  is no window's array, so the run ends with it at that value and the arguments unchanged (`run`, `run_outs`).
-/
import proofs.«150549_j72284299592193_2_alg».proof.Proof.Gen.KernelIdeal.Frame
import proofs.«150549_j72284299592193_2_alg».proof.Proof.Spec
import Idealize.ShloMosaic.Lib.Pipeline.Value
import Idealize.ShloMosaic.Lib.StableHlo.Run
import Idealize.ShloMosaic.Lib.ValueIdx
import Idealize.ShloMosaic.Lib.Tactic
import Idealize.ShloMosaic.PureOps.Ideal.Laws

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable {F : FTy → Type} [FloatOps F]
variable (m : (ℓ : Loc nD τ sig) → Buf (Elt F) ℓ) (ρ : Dev nD → PrngReg)

/-! ## The grid's points and the batches -/

/-- A grid point's number is a batch number. -/
theorem lt8 (t : Fin cfg0.N) : t.val < 8 := lt_of_lt_of_eq t.isLt N_0

/-- The grid point of batch `b`. -/
abbrev pt (b : Fin 8) : Fin cfg0.N := ⟨b.val, lt_of_lt_of_eq b.isLt N_0.symm⟩

/-- Each window's block index at point `t` is `(t, 0, 0)`: decided once over the grid. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-! ## The input blocks -/

/-- Row `n`, column `d` of the features block at point `t` is that entry of batch `t` of the features array. -/
theorem iblk0_apply (c : Dev nD) (t : Fin cfg0.N) (n : Fin 4096) (d : Fin 256) :
    (iblk m c 0 t : Vec F S1x4096x256 .f32) (ix3 (0 : Fin 1) n d)
      = m ((c : Thread nD τ).loc main_arg0) (ix3 (⟨t.val, lt8 t⟩ : Fin 8) n d) := by
  obtain ⟨h0, h1, h2⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val; rw [h0]; omega
  | ⟨1, _⟩ => show win0_0.index t 1 * 4096 + 1 * n.val = n.val; rw [h1]; omega
  | ⟨2, _⟩ => show win0_0.index t 2 * 256 + 1 * d.val = d.val; rw [h2]; omega

/-- Row `n` of the scores block at point `t` is that entry of batch `t` of the scores array. -/
theorem iblk1_apply (c : Dev nD) (t : Fin cfg0.N) (n : Fin 4096) :
    (iblk m c 1 t : Vec F S1x4096x1 .f32) (ix3 (0 : Fin 1) n (0 : Fin 1))
      = m ((c : Thread nD τ).loc main_arg1) (ix3 (⟨t.val, lt8 t⟩ : Fin 8) n (0 : Fin 1)) := by
  obtain ⟨h0, h1, h2⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val; rw [h0]; omega
  | ⟨1, _⟩ => show win0_1.index t 1 * 4096 + 1 * n.val = n.val; rw [h1]; omega
  | ⟨2, _⟩ => show win0_1.index t 2 * 1 + 1 * 0 = 0; rw [h2]

/-! ## The output arrays after the run -/

/-- The output blocks of two points with the same number are the same. -/
theorem outs_congr (c : Dev nD) (t t' : Fin cfg0.N) (h : t.val = t'.val) : outsAt0 m c t = outsAt0 m c t' := by
  obtain rfl : t = t' := Fin.ext h
  rfl

/-- The one index of a block of one entry. -/
theorem idx111 (z : S1x1x1.Idx) : z = ix3 (0 : Fin 1) (0 : Fin 1) (0 : Fin 1) :=
  funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _

/-- Entry `b` of the first output array: what grid point `b` leaves in its block. -/
def G2 (c : Dev nD) : Buf (Elt F) ((cfg0.win 2).arr.view.loc (c.tc : Thread nD τ)) :=
  fun (i : S8x1x1.Idx) => (outsAt0 m c (pt ⟨(i 0).val, (i 0).isLt⟩)).1 (ix3 (0 : Fin 1) (0 : Fin 1) (0 : Fin 1))

/-- Entry `b` of the second output array likewise. -/
def G3 (c : Dev nD) : Buf (Elt F) ((cfg0.win 3).arr.view.loc (c.tc : Thread nD τ)) :=
  fun (i : S8x1x1.Idx) => (outsAt0 m c (pt ⟨(i 0).val, (i 0).isLt⟩)).2 (ix3 (0 : Fin 1) (0 : Fin 1) (0 : Fin 1))

/-- Point `t` writes back block `(t, 0, 0)`: its one entry is entry `t` of the array. -/
theorem flushed2_eq (c : Dev nD) (t : Fin cfg0.N) (hf : (cfg0.win 2).flush t = true) :
    (dats m 0 c).flushed 2 t = ((cfg0.win 2).blk t).view.read (Elt F) (G2 m c) := by
  obtain ⟨h0, h1, h2⟩ := index2 t
  show (cfg0.win 2).cut (grid0.coords t) ((dats m 0 c).after 2 t) = _
  rw [after0_2]
  funext y
  rw [View.read_apply]
  have hy : (y 0).val < 1 := (y 0).isLt
  have hval : t.val = (pt ⟨((((cfg0.win 2).blk t).view.emb y) 0).val, ((((cfg0.win 2).blk t).view.emb y) 0).isLt⟩).val := by
    show t.val = win0_2.index t 0 * 1 + 1 * (y 0).val
    rw [h0]; omega
  show (outsAt0 m c t).1 ((cfg0.win 2).xinj (grid0.coords t) y) = (outsAt0 m c _).1 _
  rw [idx111 ((cfg0.win 2).xinj (grid0.coords t) y)]
  exact congrFun (congrArg Prod.fst (outs_congr m c t _ hval)) _

theorem flushed3_eq (c : Dev nD) (t : Fin cfg0.N) (hf : (cfg0.win 3).flush t = true) :
    (dats m 0 c).flushed 3 t = ((cfg0.win 3).blk t).view.read (Elt F) (G3 m c) := by
  obtain ⟨h0, h1, h2⟩ := index3 t
  show (cfg0.win 3).cut (grid0.coords t) ((dats m 0 c).after 3 t) = _
  rw [after0_3]
  funext y
  rw [View.read_apply]
  have hy : (y 0).val < 1 := (y 0).isLt
  have hval : t.val = (pt ⟨((((cfg0.win 3).blk t).view.emb y) 0).val, ((((cfg0.win 3).blk t).view.emb y) 0).isLt⟩).val := by
    show t.val = win0_3.index t 0 * 1 + 1 * (y 0).val
    rw [h0]; omega
  show (outsAt0 m c t).2 ((cfg0.win 3).xinj (grid0.coords t) y) = (outsAt0 m c _).2 _
  rw [idx111 ((cfg0.win 3).xinj (grid0.coords t) y)]
  exact congrFun (congrArg Prod.snd (outs_congr m c t _ hval)) _

/-- Every entry of the first output array is in the block of the point with its batch number, so the array ends
    holding what the points left. -/
theorem final2 (c : Dev nD) : (dats m 0 c).arrAt 2 cfg0.N = G2 m c :=
  (dats m 0 c).arrAt_eq_of_cover 2 (G2 m c) (flushed2_eq m c) fun i => by
    have hi0 : (i 0 : Nat) < 8 := (i 0).isLt
    have hi1 : (i 1 : Nat) < 1 := (i 1).isLt
    have hi2 : (i 2 : Nat) < 1 := (i 2).isLt
    refine ⟨pt ⟨(i 0).val, hi0⟩, flush0_2 _, ?_⟩
    obtain ⟨h0, h1, h2⟩ := index2 (pt ⟨(i 0).val, hi0⟩)
    show i ∈ ((View.whole main_v0_0).slice (win0_2.rect (pt ⟨(i 0).val, hi0⟩))).set
    rw [View.set_slice_whole, Rect.mem_set_unit]
    intro a
    match a with
    | ⟨0, _⟩ =>
      show win0_2.index (pt ⟨(i 0).val, hi0⟩) 0 * 1 ≤ (i 0 : Nat) ∧ (i 0 : Nat) < win0_2.index (pt ⟨(i 0).val, hi0⟩) 0 * 1 + 1
      rw [h0]; show (i 0).val * 1 ≤ (i 0).val ∧ (i 0).val < (i 0).val * 1 + 1; omega
    | ⟨1, _⟩ =>
      show win0_2.index (pt ⟨(i 0).val, hi0⟩) 1 * 1 ≤ (i 1 : Nat) ∧ (i 1 : Nat) < win0_2.index (pt ⟨(i 0).val, hi0⟩) 1 * 1 + 1
      rw [h1]; omega
    | ⟨2, _⟩ =>
      show win0_2.index (pt ⟨(i 0).val, hi0⟩) 2 * 1 ≤ (i 2 : Nat) ∧ (i 2 : Nat) < win0_2.index (pt ⟨(i 0).val, hi0⟩) 2 * 1 + 1
      rw [h2]; omega

theorem final3 (c : Dev nD) : (dats m 0 c).arrAt 3 cfg0.N = G3 m c :=
  (dats m 0 c).arrAt_eq_of_cover 3 (G3 m c) (flushed3_eq m c) fun i => by
    have hi0 : (i 0 : Nat) < 8 := (i 0).isLt
    have hi1 : (i 1 : Nat) < 1 := (i 1).isLt
    have hi2 : (i 2 : Nat) < 1 := (i 2).isLt
    refine ⟨pt ⟨(i 0).val, hi0⟩, flush0_3 _, ?_⟩
    obtain ⟨h0, h1, h2⟩ := index3 (pt ⟨(i 0).val, hi0⟩)
    show i ∈ ((View.whole main_v0_1).slice (win0_3.rect (pt ⟨(i 0).val, hi0⟩))).set
    rw [View.set_slice_whole, Rect.mem_set_unit]
    intro a
    match a with
    | ⟨0, _⟩ =>
      show win0_3.index (pt ⟨(i 0).val, hi0⟩) 0 * 1 ≤ (i 0 : Nat) ∧ (i 0 : Nat) < win0_3.index (pt ⟨(i 0).val, hi0⟩) 0 * 1 + 1
      rw [h0]; show (i 0).val * 1 ≤ (i 0).val ∧ (i 0).val < (i 0).val * 1 + 1; omega
    | ⟨1, _⟩ =>
      show win0_3.index (pt ⟨(i 0).val, hi0⟩) 1 * 1 ≤ (i 1 : Nat) ∧ (i 1 : Nat) < win0_3.index (pt ⟨(i 0).val, hi0⟩) 1 * 1 + 1
      rw [h1]; omega
    | ⟨2, _⟩ =>
      show win0_3.index (pt ⟨(i 0).val, hi0⟩) 2 * 1 ≤ (i 2 : Nat) ∧ (i 2 : Nat) < win0_3.index (pt ⟨(i 0).val, hi0⟩) 2 * 1 + 1
      rw [h2]; omega

/-- After the run, entry `b` of the first output array is what grid point `b`'s first output block holds. -/
theorem arr2_apply (c : Dev nD) (b : Fin 8) :
    (dats m 0 c).arrAt 2 cfg0.N (ix3 b (0 : Fin 1) (0 : Fin 1))
      = (outsAt0 m c (pt b)).1 (ix3 (0 : Fin 1) (0 : Fin 1) (0 : Fin 1)) :=
  congrFun (final2 m c) (ix3 b (0 : Fin 1) (0 : Fin 1))

/-- After the run, entry `b` of the second output array is what grid point `b`'s second output block holds. -/
theorem arr3_apply (c : Dev nD) (b : Fin 8) :
    (dats m 0 c).arrAt 3 cfg0.N (ix3 b (0 : Fin 1) (0 : Fin 1))
      = (outsAt0 m c (pt b)).2 (ix3 (0 : Fin 1) (0 : Fin 1) (0 : Fin 1)) :=
  congrFun (final3 m c) (ix3 b (0 : Fin 1) (0 : Fin 1))

/-! ## The host operations after the region -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over an array with one entry per batch is the sum over the batches. -/
theorem sum_batches (f : S8x1x1.Idx → EReal) : ∑ j, f j = ∑ b : Fin 8, f (ix3 b (0 : Fin 1) (0 : Fin 1)) := by
  rw [sum_idx3 f]
  exact Finset.sum_congr rfl fun b _ => (Fin.sum_univ_one _).trans (Fin.sum_univ_one _)

/-- The host's sum of such an array from the zero word is the sum over the batches. -/
theorem reduce_total (x : (⟨S8x1x1, .f32⟩ : BufTy).Contents (Elt Ideal)) (i : S_.Idx) :
    Host.reduceAdd (F := Ideal) x (constant S_ .f32 0x00000000#32) reducesTo_S8x1x1_S_d0_1_2 h_S_ i
      = ∑ b : Fin 8, x (ix3 b (0 : Fin 1) (0 : Fin 1)) := by
  simp only [Host.reduceAdd, Ideal.hostReduceAdd_def]
  rw [Ideal.hostReduceAdd_total reducesTo_S8x1x1_S_d0_1_2 (fun b => b.elim0) x _ i, constant_apply, Ideal.ofBits_zero_f32,
    zero_add, sum_batches]

/-- What the operations after the region leave in the result: the first output array summed over the batches and
    divided by 32768, plus one minus the second summed and divided by 2^27. -/
theorem tail_eq (m : (ℓ : Loc nD τ sig) → Buf (Elt Ideal) ℓ) (c : Dev nD) :
    Pipeline.afterTail₀ cfgs (dats m) 0 (V0 m) [hostOps1] c main_v6
      = fun _ => Ideal.div (∑ b : Fin 8, (dats m 0 c).arrAt 2 cfg0.N (ix3 b (0 : Fin 1) (0 : Fin 1))) Loss.c32768
          + (Loss.one - Ideal.div (∑ b : Fin 8, (dats m 0 c).arrAt 3 cfg0.N (ix3 b (0 : Fin 1) (0 : Fin 1))) Loss.c2p27) := by
  unfold Pipeline.afterTail₀
  show StableHlo.after hostOps1 _ (Proc.devRef .tc main_v6) = _
  after_results
  have e2 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  rw [e2, e3]
  funext i
  show Ideal.div (Host.reduceAdd (F := Ideal) ((dats m 0 c).arrAt 2 cfg0.N) (constant S_ .f32 0x00000000#32) reducesTo_S8x1x1_S_d0_1_2 h_S_ i) Loss.c32768
      + (Loss.one - Ideal.div (Host.reduceAdd (F := Ideal) ((dats m 0 c).arrAt 3 cfg0.N) (constant S_ .f32 0x00000000#32) reducesTo_S8x1x1_S_d0_1_2 h_S_ i) Loss.c2p27) = _
  rw [reduce_total, reduce_total]

/-! ## The run, read -/

/-- The result buffer is unscoped and is no window's array. -/
theorem mem_rest : main_v6 ∈ Pipeline.restRefs sig (cfgs 0).spec :=
  Pipeline.mem_restRefs_of main_v6 rfl (fun w => by fin_cases w <;> decide)

/-- The same result over what the grid points left in their output blocks. -/
theorem tail_outs_eq (m : (ℓ : Loc nD τ sig) → Buf (Elt Ideal) ℓ) (c : Dev nD) :
    Pipeline.afterTail₀ cfgs (dats m) 0 (V0 m) [hostOps1] c main_v6
      = fun _ => Ideal.div (∑ b : Fin 8, (outsAt0 m c (pt b)).1 (ix3 (0 : Fin 1) (0 : Fin 1) (0 : Fin 1))) Loss.c32768
          + (Loss.one - Ideal.div (∑ b : Fin 8, (outsAt0 m c (pt b)).2 (ix3 (0 : Fin 1) (0 : Fin 1) (0 : Fin 1))) Loss.c2p27) := by
  rw [tail_eq]
  simp only [arr2_apply, arr3_apply]

/-- Every weakly fair execution of @main terminates with the result at the two output arrays' sums over the batches,
    the first divided by 32768 plus one minus the second divided by 2^27, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6)
        = (fun _ => Ideal.div (∑ b : Fin 8, (dats m 0 c).arrAt 2 cfg0.N (ix3 b (0 : Fin 1) (0 : Fin 1))) Loss.c32768
            + (Loss.one - Ideal.div (∑ b : Fin 8, (dats m 0 c).arrAt 3 cfg0.N (ix3 b (0 : Fin 1) (0 : Fin 1))) Loss.c2p27))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v6 mem_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

/-- The same run with the result over what the grid points left in their output blocks. -/
theorem run_outs (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6)
        = (fun _ => Ideal.div (∑ b : Fin 8, (outsAt0 m c (pt b)).1 (ix3 (0 : Fin 1) (0 : Fin 1) (0 : Fin 1))) Loss.c32768
            + (Loss.one - Ideal.div (∑ b : Fin 8, (outsAt0 m c (pt b)).2 (ix3 (0 : Fin 1) (0 : Fin 1) (0 : Fin 1))) Loss.c2p27))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v6 mem_rest).trans (tail_outs_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.ArrayValue

end
-- ==== Proof.LossBatch.lean ====
/-
  The per-batch quantities of the loss depend on one batch only.

  `unit`, `total`, `sim`, `tgt` and `row` at batch `b` read the features and scores at batch `b` and nowhere else: two
  families that agree on one batch each (whatever their batch index types) give the same values there.
-/
import proofs.«150549_j72284299592193_2_alg».proof.Proof.Spec

noncomputable section

namespace Cert.Loss

variable {B B' N D : Type} [Fintype B] [Fintype B'] [Fintype N] [Fintype D]

theorem sim_batch (x : B → N → D → EReal) (x' : B' → N → D → EReal) (b : B) (b' : B') (hx : x b = x' b') (n : N) :
    sim x b n = sim x' b' n := by
  unfold sim total unit nrm
  rw [hx]

theorem row_batch (x : B → N → D → EReal) (x' : B' → N → D → EReal) (s : B → N → EReal) (s' : B' → N → EReal)
    (b : B) (b' : B') (hx : x b = x' b') (hs : s b = s' b') (n : N) :
    row x s b n = row x' s' b' n := by
  unfold row tgt
  rw [sim_batch x x' b b' hx n, hs]

end Cert.Loss

end
-- ==== Proof.KFinal.lean ====
/-
  The kernel's result is the loss in the kernel's arrangement.

  Grid point `b` reads batch `b` of the features and of the scores, and writes entry `b` of the two [8, 1, 1] outputs: the
  batch's sum of negated cross-entropy terms and its sum of inner products.  The host then sums each output over the
  batches, divides the first sum by 32768, the second by 2^27, and returns the first quotient plus one minus the second:
  the loss in the kernel's arrangement, as a function of the two argument arrays.
-/
import proofs.«150549_j72284299592193_2_alg».proof.Proof.KBody
import proofs.«150549_j72284299592193_2_alg».proof.Proof.KArray
import proofs.«150549_j72284299592193_2_alg».proof.Proof.LossBatch

noncomputable section

namespace Cert.KernelIdeal.RunValue

open Cert.KernelIdeal Cert.KernelIdeal.Gen Cert.KernelIdeal.LoopValue Cert.KernelIdeal.BodyValue Cert.KernelIdeal.ArrayValue
open Idealize.ShloMosaic Idealize.ShloMosaic.ValueIdx Idealize.ShloMosaic.TcCoe Idealize.SL.Sem

variable (m : (ℓ : Loc nD τ sig) → Buf (Elt Ideal) ℓ) (ρ : Dev nD → PrngReg)

/-- The features block of grid point `b` is batch `b` of the features array; likewise the scores. -/
theorem bx_point (c : Dev nD) (b : Fin 8) :
    bx (iblk m c 0 (pt b)) 0 = Cert.Loss.feat (m ((c : Thread nD τ).loc main_arg0)) b :=
  funext fun n => funext fun d => iblk0_apply m c (pt b) n d

theorem bs_point (c : Dev nD) (b : Fin 8) :
    bs (iblk m c 1 (pt b)) 0 = Cert.Loss.score (m ((c : Thread nD τ).loc main_arg1)) b :=
  funext fun n => iblk1_apply m c (pt b) n

/-- Entry `b` of the first output after the run: batch `b`'s sum of negated terms. -/
theorem arr2_value (c : Dev nD) (b : Fin 8) :
    @Eq EReal ((dats m 0 c).arrAt 2 cfg0.N (ix3 b (0 : Fin 1) (0 : Fin 1)))
      (∑ n : Fin 4096, -(Cert.Loss.row (Cert.Loss.feat (m ((c : Thread nD τ).loc main_arg0)))
          (Cert.Loss.score (m ((c : Thread nD τ).loc main_arg1))) b n)) := by
  rw [arr2_apply, (outsAt_apply m c (pt b)).1]
  refine Finset.sum_congr rfl fun n _ => congrArg Neg.neg ?_
  exact Cert.Loss.row_batch _ _ _ _ 0 b (bx_point m c b) (bs_point m c b) n

/-- Entry `b` of the second output: batch `b`'s sum of inner products. -/
theorem arr3_value (c : Dev nD) (b : Fin 8) :
    @Eq EReal ((dats m 0 c).arrAt 3 cfg0.N (ix3 b (0 : Fin 1) (0 : Fin 1)))
      (∑ n : Fin 4096, Cert.Loss.sim (Cert.Loss.feat (m ((c : Thread nD τ).loc main_arg0))) b n) := by
  rw [arr3_apply, (outsAt_apply m c (pt b)).2]
  refine Finset.sum_congr rfl fun n _ => ?_
  exact Cert.Loss.sim_batch _ _ 0 b (bx_point m c b) n

/-- The result buffer after the host operations that follow the region. -/
theorem result_eq (c : Dev nD) :
    Pipeline.afterTail₀ cfgs (dats m) 0 (V0 m) [hostOps1] c main_v6
      = fun _ => Cert.Loss.kernelLoss (Cert.Loss.feat (m ((c : Thread nD τ).loc main_arg0)))
          (Cert.Loss.score (m ((c : Thread nD τ).loc main_arg1))) := by
  rw [tail_eq]
  funext _
  unfold Cert.Loss.kernelLoss
  simp only [arr2_value, arr3_value]

/-- The run, read: the result at the loss, the arguments unchanged. -/
theorem run : θ_run defs (onTc (τ := τ) (main (F := Ideal))) ⟨m, fun _ => 0, ρ⟩ (fun r => ∀ c : Dev nD,
      r.2.mem ((c.tc : Thread nD τ).loc main_v6)
          = (fun _ => Cert.Loss.kernelLoss (Cert.Loss.feat (m ((c.tc : Thread nD τ).loc main_arg0)))
              (Cert.Loss.score (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v6 (by decide)).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.RunValue

end
-- ==== Proof.RefValue.lean ====
/-
  The reference's result is the loss in the reference's arrangement.

  Read one operation at a time at an index `(b, n, d)` of batch, row and column, the reference computes:
  the length of each row, `sqrt (∑ d, x·x)`, floored at ε; the unit row `x / length`; the sum over the rows `n` of the
  unit rows; each unit row's inner product with that sum; the target `1 - max ((sim - 1) / 4095, 0)`; each row's term
  `tgt · max (log s, -100) + (1 - tgt) · max (log (1 - s), -100)`; the sum of the terms over all batches and rows,
  divided by 32768 and negated; the Gram matrix `∑ d, unit b n d · unit b m d` summed over all `(b, n, m)`, divided by
  2^27 and subtracted from one; and the sum of the two. Every `0 +` of a sum's initial value is the zero word, and the
  other literals stay as the words the program prints, which are the words of the specification.

  A sum over a rank-3 index set is the triple sum over its coordinates (`sum_idx3`); over a column array, whose last
  axis has one entry, the double sum over batch and row (`sum_column`).
-/
import proofs.«150549_j72284299592193_2_alg».proof.Proof.Gen.ReferenceIdeal.Read
import proofs.«150549_j72284299592193_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over all pairs of rows of all batches. -/
theorem sum_pairs (f : S8x4096x4096.Idx → EReal) :
    ∑ j, f j = ∑ b : Fin 8, ∑ n : Fin 4096, ∑ m : Fin 4096, f (ix3 b n m) := sum_idx3 f

/-- The sum over a column array: its last axis has one entry. -/
theorem sum_column (f : S8x4096x1.Idx → EReal) :
    ∑ j, f j = ∑ b : Fin 8, ∑ n : Fin 4096, f (ix3 b n (0 : Fin 1)) := by
  rw [sum_idx3 f]
  exact Finset.sum_congr rfl fun b _ => Finset.sum_congr rfl fun n _ => Fin.sum_univ_one _

/-! ## The rows' lengths and the unit rows -/

theorem idx_sq (b : Fin 8) (n : Fin 4096) (k : Fin 256) :
    idx_main_call0_v1 (idx_main_call0_v2 (ix3 b n (0 : Fin 1))) k = ix3 b n k :=
  funext fun a => Fin.ext (by match a with | ⟨0, _⟩ => rfl | ⟨1, _⟩ => rfl | ⟨2, _⟩ => rfl)

/-- The floored length of row `n` of batch `b`: the square root of the sum of the squares, floored at ε. -/
theorem nrm_at (x0 : (⟨S8x4096x256, .f32⟩ : BufTy).Contents (Elt Ideal)) (b : Fin 8) (n : Fin 4096) :
    val_main_v2 (F := Ideal) x0 (ix3 b n (0 : Fin 1)) = Loss.nrm (Loss.feat x0) b n := by
  rw [val_main_v2_apply, val_main_v0_apply, val_main_call0_v2_apply, val_main_call0_v1_apply, val_main_v1_apply,
    val_main_cst_apply, val_main_call0_cst_apply]
  simp only [val_main_call0_v0_apply, idx_sq, Ideal.maximumf_def, Ideal.hostUnary_sqrt_def, Ideal.mulf_def, Ideal.ofBits_def,
    Ideal.ofBits_zero_f32, zero_add]
  rfl

theorem idx_col (b : Fin 8) (n : Fin 4096) (d : Fin 256) : idx_main_v3 (ix3 b n d) = ix3 b n (0 : Fin 1) :=
  funext fun a => Fin.ext (by match a with | ⟨0, _⟩ => rfl | ⟨1, _⟩ => rfl | ⟨2, _⟩ => rfl)

/-- The unit row: each entry divided by the row's floored length. -/
theorem unit_at (x0 : (⟨S8x4096x256, .f32⟩ : BufTy).Contents (Elt Ideal)) (b : Fin 8) (n : Fin 4096) (d : Fin 256) :
    val_main_v4 (F := Ideal) x0 (ix3 b n d) = Loss.unit (Loss.feat x0) b n d := by
  rw [val_main_v4_apply, val_main_v3_apply, idx_col, nrm_at, Ideal.hostDivf_def]
  rfl

/-! ## The sum of a batch's unit rows, and each row's inner product with it -/

theorem idx_total (b : Fin 8) (d : Fin 256) (k : Fin 4096) : idx_main_v5 (ix2 b d) k = ix3 b k d :=
  funext fun a => Fin.ext (by match a with | ⟨0, _⟩ => rfl | ⟨1, _⟩ => rfl | ⟨2, _⟩ => rfl)

/-- Column `d` of the sum of batch `b`'s unit rows. -/
theorem total_at (x0 : (⟨S8x4096x256, .f32⟩ : BufTy).Contents (Elt Ideal)) (b : Fin 8) (d : Fin 256) :
    val_main_v5 (F := Ideal) x0 (ix2 b d) = Loss.total (Loss.feat x0) b d := by
  rw [val_main_v5_apply, val_main_cst_0_apply]
  simp only [idx_total, unit_at, Ideal.ofBits_def, Ideal.ofBits_zero_f32, zero_add]
  rfl

theorem idx_sim_l (b : Fin 8) (n : Fin 4096) (k : Fin 256) : lidx_main_v7 (ix3 b n (0 : Fin 1)) k = ix3 b n k :=
  funext fun a => Fin.ext (by match a with | ⟨0, _⟩ => rfl | ⟨1, _⟩ => rfl | ⟨2, _⟩ => rfl)

theorem idx_sim_r (b : Fin 8) (n : Fin 4096) (k : Fin 256) :
    idx_main_v6 (ridx_main_v7 (ix3 b n (0 : Fin 1)) k) = ix2 b k :=
  funext fun a => Fin.ext (by match a with | ⟨0, _⟩ => rfl | ⟨1, _⟩ => rfl)

/-- The inner product of unit row `n` with the sum of the batch's unit rows. -/
theorem sim_at (x0 : (⟨S8x4096x256, .f32⟩ : BufTy).Contents (Elt Ideal)) (b : Fin 8) (n : Fin 4096) :
    val_main_v7 (F := Ideal) x0 (ix3 b n (0 : Fin 1)) = Loss.sim (Loss.feat x0) b n := by
  rw [val_main_v7_apply]
  simp only [val_main_v6_apply, idx_sim_l, idx_sim_r, unit_at, total_at]
  rfl

/-! ## The targets and the rows' cross-entropy terms -/

/-- The target of row `n`: one minus the positive part of `(sim - 1) / 4095`. -/
theorem tgt_at (x0 : (⟨S8x4096x256, .f32⟩ : BufTy).Contents (Elt Ideal)) (b : Fin 8) (n : Fin 4096) :
    val_main_v14 (F := Ideal) x0 (ix3 b n (0 : Fin 1)) = Loss.tgt (Loss.feat x0) b n := by
  rw [val_main_v14_apply, val_main_v13_apply, val_main_cst_3_apply, val_main_v12_apply, val_main_call1_v0_apply,
    val_main_call1_cst_apply, val_main_v11_apply, val_main_v10_apply, val_main_cst_2_apply, val_main_v9_apply,
    val_main_v8_apply, val_main_cst_1_apply, sim_at]
  simp only [Ideal.subf_def, Ideal.maximumf_def, Ideal.hostDivf_def, Ideal.ofBits_def, Ideal.ofBits_zero_f32]
  rfl

/-- Row `n`'s term: the target times the floored logarithm of the score, plus the complement times the floored
    logarithm of one minus the score. -/
theorem row_at (x0 : (⟨S8x4096x256, .f32⟩ : BufTy).Contents (Elt Ideal)) (x1 : (⟨S8x4096x1, .f32⟩ : BufTy).Contents (Elt Ideal))
    (b : Fin 8) (n : Fin 4096) :
    val_main_v30 (F := Ideal) x0 x1 (ix3 b n (0 : Fin 1)) = Loss.row (Loss.feat x0) (Loss.score x1) b n := by
  rw [val_main_v30_apply, val_main_v26_apply, val_main_v29_apply, val_main_v28_apply, val_main_v27_apply, val_main_cst_9_apply,
    val_main_v21_apply, val_main_v19_apply, val_main_v20_apply, val_main_cst_7_apply, val_main_v25_apply, val_main_v23_apply,
    val_main_v22_apply, val_main_v24_apply, val_main_cst_8_apply, tgt_at]
  simp only [Ideal.addf_def, Ideal.mulf_def, Ideal.subf_def, Ideal.maximumf_def, Ideal.hostUnary_log_def,
    Ideal.hostUnary_log1p_def, Ideal.hostNegf_def, Ideal.negf_def, Ideal.ofBits_def]
  rfl

/-! ## The Gram matrix of the unit rows -/

theorem idx_gram_l (b : Fin 8) (n m : Fin 4096) (k : Fin 256) : lidx_main_v15 (ix3 b n m) k = ix3 b n k :=
  funext fun a => Fin.ext (by match a with | ⟨0, _⟩ => rfl | ⟨1, _⟩ => rfl | ⟨2, _⟩ => rfl)

theorem idx_gram_r (b : Fin 8) (n m : Fin 4096) (k : Fin 256) : ridx_main_v15 (ix3 b n m) k = ix3 b m k :=
  funext fun a => Fin.ext (by match a with | ⟨0, _⟩ => rfl | ⟨1, _⟩ => rfl | ⟨2, _⟩ => rfl)

/-- Entry `(n, m)` of batch `b`'s Gram matrix: the inner product of unit rows `n` and `m`. -/
theorem gram_at (x0 : (⟨S8x4096x256, .f32⟩ : BufTy).Contents (Elt Ideal)) (b : Fin 8) (n m : Fin 4096) :
    val_main_v15 (F := Ideal) x0 (ix3 b n m)
      = ∑ d : Fin 256, Loss.unit (Loss.feat x0) b n d * Loss.unit (Loss.feat x0) b m d := by
  rw [val_main_v15_apply]
  simp only [idx_gram_l, idx_gram_r, unit_at]

/-! ## The result -/

/-- The reference's result, at every index of the rank-0 result array, is the negated mean of the rows' terms plus one
    minus the mean of the whole Gram matrix. -/
theorem result_eq (x0 : (⟨S8x4096x256, .f32⟩ : BufTy).Contents (Elt Ideal)) (x1 : (⟨S8x4096x1, .f32⟩ : BufTy).Contents (Elt Ideal)) :
    val_main_v34 (F := Ideal) x0 x1 = fun _ => Loss.referenceLoss (Loss.feat x0) (Loss.score x1) := by
  funext i
  rw [val_main_v34_apply, val_main_v33_apply, val_main_v32_apply, val_main_v31_apply, val_main_cst_10_apply,
    val_main_cst_11_apply, val_main_v18_apply, val_main_cst_6_apply, val_main_v17_apply, val_main_v16_apply,
    val_main_cst_4_apply, val_main_cst_5_apply, sum_column, sum_pairs]
  simp only [row_at, gram_at, Ideal.addf_def, Ideal.subf_def, Ideal.hostDivf_def, Ideal.hostNegf_def, Ideal.negf_def,
    Ideal.ofBits_def, Ideal.ofBits_zero_f32, zero_add]
  rfl

end Cert.ReferenceIdeal.RefValue

end
-- ==== Proof.LibRealValued.lean ====
/-
  Real-valued entries on the extended reals.

  At the ideal reading a float is an extended real.  x - x = 0 holds exactly when x is a real number
  (top minus top is bottom), so a program that returns the mean of |h - h| returns 0 as soon as every entry of h is
  real, whatever h is.  This module states "every entry is a real number" for a vector, shows that the
  operations a counting histogram is built from keep it (sums, products, an integer read as a float, a change
  of format, a matrix product into a zero accumulator, an accumulating scatter, and every operation that only
  moves entries: slice, reshape, gather) and closes the mean of |h - h|.
-/
import Idealize.ShloMosaic.PureOps.Ideal.Laws

noncomputable section

namespace Cert.RealValued

open Idealize.ShloMosaic

/-- An extended real that is a real number: neither infinity. -/
def IsReal (x : EReal) : Prop := ∃ r : ℝ, x = (r : EReal)

theorem isReal_zero : IsReal 0 := ⟨0, rfl⟩

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is zero (false at the infinities). -/
theorem IsReal.sub_self {x : EReal} (hx : IsReal x) : x - x = 0 := by
  obtain ⟨a, rfl⟩ := hx
  rw [← EReal.coe_sub, _root_.sub_self, EReal.coe_zero]

/-- Every entry of a vector of extended reals is a real number. -/
def AllReal {S : Shape} (v : S.Idx → EReal) : Prop := ∀ i, IsReal (v i)

/-- Re-indexing (a slice, a reshape, a gather, a broadcast) only moves entries. -/
theorem AllReal.comp {S T : Shape} {v : S.Idx → EReal} (hv : AllReal v) (f : T.Idx → S.Idx) : AllReal fun j => v (f j) :=
  fun j => hv (f j)

theorem allReal_const {S : Shape} {x : EReal} (hx : IsReal x) : AllReal (S := S) fun _ => x := fun _ => hx

section Ops
variable {S T : Shape} {φ : FTy}

theorem allReal_addf {x y : FVec Ideal S φ} (hx : AllReal x) (hy : AllReal y) : AllReal (addf x y) :=
  fun i => (hx i).add (hy i)

/-- The splat of the zero word. -/
theorem allReal_broadcast_zero : AllReal (broadcast S (Scalar.ofBits (F := Ideal) .f32 0x00000000#32)) := fun _ => by
  show IsReal (Ideal.ofBits .f32 0x00000000#32)
  rw [Ideal.ofBits_zero_f32]; exact isReal_zero

theorem allReal_constant_zero : AllReal (constant (F := Ideal) S .f32 0x00000000#32) := fun _ => by
  show IsReal (Ideal.ofBits .f32 0x00000000#32)
  rw [Ideal.ofBits_zero_f32]; exact isReal_zero

/-- An integer read as a float is that integer; a change of format is the identity. -/
theorem allReal_sitofp {w : Nat} (x : IVec S w) : AllReal (sitofp (F := Ideal) φ x) :=
  fun i => ⟨((x i).toInt : ℝ), rfl⟩

theorem allReal_truncf {ψ : FTy} {x : FVec Ideal S φ} (h : ψ.bits < φ.bits) (hx : AllReal x) : AllReal (truncf ψ x h) :=
  fun i => hx i

theorem allReal_shapeCast {x : S.Idx → EReal} (h : S.ShapeCasts T) (hx : AllReal x) : AllReal (shapeCast T x h) :=
  fun _ => hx _

theorem allReal_extractStridedSlice {x : S.Idx → EReal} (off : Fin S.rank → Nat) (h : S.Slices off T) (hx : AllReal x) :
    AllReal (extractStridedSlice T off x h) :=
  fun _ => hx _

theorem allReal_gather {si : Shape} {w : Nat} (d : GatherDims S si T) {x : S.Idx → EReal} (idx : IVec si w) (hx : AllReal x) :
    AllReal (Host.gather d x idx) :=
  fun _ => hx _

/-- A matrix product into the zero accumulator: each entry is a finite sum of products of entries. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (FloatOps.matmul d prec lhs rhs (constant so .f32 0x00000000#32)) := fun j => by
  rw [Ideal.matmul_constant_zero_apply]
  exact isReal_sum _ _ fun k _ => (hl _).mul (hr _)

/-- An accumulating scatter: each entry is the operand's plus a finite sum of update entries, wherever the
    indices point. -/
theorem allReal_scatterAdd {si su : Shape} {w : Nat} (d : ScatterDims S si su) {x : FVec Ideal S φ} (idx : IVec si w)
    {upd : FVec Ideal su φ} (hx : AllReal x) (hu : AllReal upd) : AllReal (Ideal.hostScatterAdd d x idx upd) := fun i => by
  unfold Ideal.hostScatterAdd
  exact (hx i).add (isReal_sum _ _ fun j _ => hu j)

end Ops

/-- The word 0x46BF4000 (24480.0) denotes the real 24480. -/
theorem ofBits_24480 : Ideal.ofBits .f32 0x46BF4000#32 = ((24480 : ℝ) : EReal) := by
  simp [Ideal.ofBits, Ideal.ieee, -EReal.coe_mul]; norm_num

/-- The mean of |h - h|: for a vector h of real numbers every difference is 0, so is its absolute value, the sum
    of zeros from the zero word is 0, and 0 divided by a nonzero real is 0. -/
theorem mean_abs_sub_self {S T U : Shape} {axes : List (Fin S.rank)} (h : FVec Ideal S .f32) (hh : AllReal h)
    (hr : S.ReducesTo axes T) (hu : 0 < U.numel) (c : BitVec 32) (y : ℝ) (hy : y ≠ 0) (hc : Ideal.ofBits .f32 c = (y : EReal)) :
    Host.divf (F := Ideal) (Host.reduceAdd (F := Ideal) (Host.absf (F := Ideal) (subf h h)) (constant (F := Ideal) U .f32 0x00000000#32) hr hu)
        (constant (F := Ideal) T .f32 c)
      = fun _ => (0 : EReal) := by
  funext j
  have hz : Host.absf (F := Ideal) (subf h h) = fun _ => (0 : EReal) := by
    funext i
    show max (h i - h i) (-(h i - h i)) = 0
    rw [(hh i).sub_self, neg_zero, max_self]
  show Ideal.div (Ideal.hostReduceAdd hr (Host.absf (F := Ideal) (subf h h)) (Ideal.ofBits .f32 0x00000000#32) j) (Ideal.ofBits .f32 c) = 0
  rw [hz, hc, Ideal.div_coe hy]
  unfold Ideal.hostReduceAdd
  rw [Ideal.ofBits_zero_f32, Finset.sum_const_zero, add_zero, zero_mul]

end Cert.RealValued

end
-- ==== Proof.LossAlgebra.lean ====
/-
  The two arrangements of the loss agree on real inputs.

  On the extended reals addition and multiplication are not a ring: ⊤ + ⊥ = ⊥, so a sum of negations need not be
  the negation of the sum, and a product need not distribute over a sum.  Both laws hold for real numbers.  This
  module shows that for real features and scores every intermediate quantity of the loss is a real number —
  the literals are reals (ε a positive one), the floored row length max(√(∑ x²), ε) is a positive real, hence
  the unit rows, their sum, the similarities and the targets are reals; log of a real is ⊥ or a real, so its
  maximum with -100 is a real, and so is each cross-entropy term — and then compares the two arrangements
  inside ℝ:
    ∑ b, ∑ n, -(row b n) = -(∑ b, ∑ n, row b n),   (-S) · c = -(S · c),
    ∑ b, ∑ n, ∑ d, u b n d · (∑ m, u b m d) = ∑ b, ∑ n, ∑ m, ∑ d, u b n d · u b m d.
-/
import proofs.«150549_j72284299592193_2_alg».proof.Proof.Spec
import proofs.«150549_j72284299592193_2_alg».proof.Proof.LibRealValued

noncomputable section

namespace Cert.Loss

open Idealize.ShloMosaic Cert.RealValued

/-- The word 0x3F800000 denotes the real 1. -/
theorem one_eq : one = ((1 : ℝ) : EReal) := by
  show Ideal.ofBits .f32 0x3F800000#32 = _
  simp [Ideal.ofBits, Ideal.ieee, -EReal.coe_mul]; norm_num

/-- The word 0x457FF000 denotes the real 4095. -/
theorem c4095_eq : c4095 = ((4095 : ℝ) : EReal) := by
  show Ideal.ofBits .f32 0x457FF000#32 = _
  simp [Ideal.ofBits, Ideal.ieee, -EReal.coe_mul]; norm_num

/-- The word 0xC2C80000 denotes the real -100. -/
theorem cm100_eq : cm100 = ((-100 : ℝ) : EReal) := by
  show Ideal.ofBits .f32 0xC2C80000#32 = _
  simp [Ideal.ofBits, Ideal.ieee, -EReal.coe_mul]; norm_num

/-- The word 0x47000000 denotes the real 32768. -/
theorem c32768_eq : c32768 = ((32768 : ℝ) : EReal) := by
  show Ideal.ofBits .f32 0x47000000#32 = _
  simp [Ideal.ofBits, Ideal.ieee, -EReal.coe_mul]; norm_num

/-- The word 0x4D000000 denotes the real 2^27 = 134217728. -/
theorem c2p27_eq : c2p27 = ((134217728 : ℝ) : EReal) := by
  show Ideal.ofBits .f32 0x4D000000#32 = _
  simp [Ideal.ofBits, Ideal.ieee, -EReal.coe_mul]; norm_num

/-- The word 0x2B8CBCCC has sign 0, exponent field 87 and fraction field 834764: it denotes
    (2^23 + 834764) · 2^(87 - 127 - 23) = 9223372 · 2^(-63). -/
theorem eps_eq : eps = ((9223372 * (2 : ℝ) ^ (-63 : ℤ) : ℝ) : EReal) := by
  show Ideal.ofBits .f32 0x2B8CBCCC#32 = _
  simp [Ideal.ofBits, Ideal.ieee, -EReal.coe_mul]

/-- The floor ε is a positive real. -/
theorem eps_pos : ∃ r : ℝ, 0 < r ∧ eps = (r : EReal) :=
  ⟨9223372 * (2 : ℝ) ^ (-63 : ℤ), by positivity, eps_eq⟩

variable {B N D : Type} [Fintype B] [Fintype N] [Fintype D]

/-! ### Closure of the real numbers inside the extended reals -/

theorem isReal_neg {x : EReal} (hx : IsReal x) : IsReal (-x) := by
  obtain ⟨a, rfl⟩ := hx; exact ⟨-a, (EReal.coe_neg a).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_max {x y : EReal} (hx : IsReal x) (hy : IsReal y) : IsReal (max x y) := by
  rcases le_total x y with h | h
  · rw [max_eq_right h]; exact hy
  · rw [max_eq_left h]; exact hx

/-- The larger of ⊥ and a real number is that real number. -/
theorem isReal_max_bot_or {y c : EReal} (h : y = ⊥ ∨ IsReal y) (hc : IsReal c) : IsReal (max y c) := by
  rcases h with rfl | h
  · rw [max_eq_right bot_le]; exact hc
  · exact isReal_max h hc

/-- Division of a real number by a nonzero real number. -/
theorem isReal_div_coe {x : EReal} (hx : IsReal x) {c : ℝ} (hc : c ≠ 0) : IsReal (Ideal.div x (c : EReal)) := by
  rw [Ideal.div_coe hc]; exact hx.mul (isReal_coe _)

/-- The logarithm of a real number is ⊥ (at and below 0) or a real number. -/
theorem log_coe_bot_or (r : ℝ) : Ideal.log (r : EReal) = ⊥ ∨ IsReal (Ideal.log (r : EReal)) := by
  rw [Ideal.log_coe]
  split_ifs
  · exact Or.inl rfl
  · exact Or.inr (isReal_coe _)

/-- log(1 + (-s)) of a real number s is ⊥ or a real number. -/
theorem log1p_neg_coe_bot_or (r : ℝ) :
    Ideal.log1p (-(r : EReal)) = ⊥ ∨ IsReal (Ideal.log1p (-(r : EReal))) := by
  have h : (1 : EReal) + -(r : EReal) = ((1 + -r : ℝ) : EReal) := by
    rw [← EReal.coe_neg, ← EReal.coe_one, ← EReal.coe_add]
  rw [Ideal.log1p, h]
  exact log_coe_bot_or _

/-- A finite sum of coerced reals is the coerced sum. -/
theorem coe_finsum {ι : Type*} (t : Finset ι) (f : ι → ℝ) :
    ∑ i ∈ t, ((f i : ℝ) : EReal) = ((∑ i ∈ t, f i : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-! ### Every intermediate quantity of the loss is a real number -/

/-- The floored length of a real row is a positive real. -/
theorem nrm_pos (x : B → N → D → EReal) (hx : ∀ b n d, IsReal (x b n d)) (b : B) (n : N) :
    ∃ r : ℝ, 0 < r ∧ nrm x b n = (r : EReal) := by
  obtain ⟨e, he, hee⟩ := eps_pos
  obtain ⟨q, hq⟩ : IsReal (∑ d, x b n d * x b n d) := isReal_sum _ _ fun d _ => (hx b n d).mul (hx b n d)
  unfold nrm
  rw [hq, hee, Ideal.sqrt_coe]
  split_ifs
  · exact ⟨e, he, max_eq_right bot_le⟩
  · rcases le_total (Real.sqrt q) e with h | h
    · exact ⟨e, he, max_eq_right (EReal.coe_le_coe_iff.mpr h)⟩
    · exact ⟨Real.sqrt q, lt_of_lt_of_le he h, max_eq_left (EReal.coe_le_coe_iff.mpr h)⟩

theorem isReal_unit (x : B → N → D → EReal) (hx : ∀ b n d, IsReal (x b n d)) (b : B) (n : N) (d : D) :
    IsReal (unit x b n d) := by
  obtain ⟨r, hr, hn⟩ := nrm_pos x hx b n
  unfold unit
  rw [hn]
  exact isReal_div_coe (hx b n d) hr.ne'

theorem isReal_total (x : B → N → D → EReal) (hx : ∀ b n d, IsReal (x b n d)) (b : B) (d : D) :
    IsReal (total x b d) :=
  isReal_sum _ _ fun n _ => isReal_unit x hx b n d

theorem isReal_sim (x : B → N → D → EReal) (hx : ∀ b n d, IsReal (x b n d)) (b : B) (n : N) :
    IsReal (sim x b n) :=
  isReal_sum _ _ fun d _ => (isReal_unit x hx b n d).mul (isReal_total x hx b d)

theorem isReal_tgt (x : B → N → D → EReal) (hx : ∀ b n d, IsReal (x b n d)) (b : B) (n : N) :
    IsReal (tgt x b n) := by
  unfold tgt
  rw [one_eq, c4095_eq]
  exact isReal_sub (isReal_coe 1)
    (isReal_max (isReal_div_coe (isReal_sub (isReal_sim x hx b n) (isReal_coe 1)) (by norm_num)) isReal_zero)

theorem isReal_row (x : B → N → D → EReal) (s : B → N → EReal)
    (hx : ∀ b n d, IsReal (x b n d)) (hs : ∀ b n, IsReal (s b n)) (b : B) (n : N) :
    IsReal (row x s b n) := by
  obtain ⟨r, hr⟩ := hs b n
  have ht := isReal_tgt x hx b n
  unfold row
  rw [hr, one_eq, cm100_eq]
  exact (ht.mul (isReal_max_bot_or (log_coe_bot_or r) (isReal_coe _))).add
    ((isReal_sub (isReal_coe 1) ht).mul (isReal_max_bot_or (log1p_neg_coe_bot_or r) (isReal_coe _)))

/-! ### The two arrangements agree -/

/-- For real features and scores the kernel's arrangement and the reference's are equal: a sum of negated
    reals is the negated sum, a negated real times a constant is the negated product, and the sum over rows
    n of ⟨unit n, ∑ m unit m⟩ is the sum over all pairs (n, m) of ⟨unit n, unit m⟩. -/
theorem kernelLoss_eq_referenceLoss (x : B → N → D → EReal) (s : B → N → EReal)
    (hx : ∀ b n d, Cert.RealValued.IsReal (x b n d)) (hs : ∀ b n, Cert.RealValued.IsReal (s b n)) :
    kernelLoss x s = referenceLoss x s := by
  choose fr hfr using fun b n d => isReal_unit x hx b n d
  choose rr hrr using fun b n => isReal_row x s hx hs b n
  have h1 : ∑ b, ∑ n, -(row x s b n) = -(∑ b, ∑ n, row x s b n) := by
    simp only [hrr, ← EReal.coe_neg, coe_finsum, Finset.sum_neg_distrib]
  have h2 : ∑ b, ∑ n, sim x b n = ∑ b, ∑ n, ∑ m, ∑ d, unit x b n d * unit x b m d := by
    unfold sim total
    simp only [hfr, ← EReal.coe_mul, coe_finsum]
    congr 1
    refine Finset.sum_congr rfl fun b _ => Finset.sum_congr rfl fun n _ => ?_
    simp only [Finset.mul_sum]
    exact Finset.sum_comm
  unfold kernelLoss referenceLoss
  rw [h1, h2, c32768_eq, Ideal.div_coe (by norm_num), Ideal.div_coe (by norm_num), EReal.neg_mul]

end Cert.Loss

end
-- ==== Proof.FiniteInputs.lean ====
/-
  The finiteness precondition, read back.

  The precondition is the conjunction of all(|features| < +∞) and all(|scores| < +∞): each is a reduction by
  `and`, from the constant 1, of the array of comparisons |x| < +∞ against the word 0x7F800000, and the two
  results are joined by `and`.  Stated to be 1 on a device, it gives: both reductions are 1, so every comparison is 1
  (a reduction over all axes into the one rank-0 index), so every entry x has max(x, -x) < ⊤ on the extended reals
  (the word 0x7F800000 denotes ⊤), and such an x is neither ⊥ nor ⊤: it is a real number.
-/
import proofs.«150549_j72284299592193_2_alg».proof.Defs
import proofs.«150549_j72284299592193_2_alg».proof.Proof.Gen.Pre_finite_inputs
import proofs.«150549_j72284299592193_2_alg».proof.Proof.LibRealValued
import Idealize.ShloMosaic.Lib.ReduceAll
import Idealize.ShloMosaic.Lib.ValueIdx

noncomputable section

namespace Cert.Proof.Finite

open Idealize.ShloMosaic Idealize.SL.Sem Cert.RealValued

/-- The word 0x7F800000 (exponent field all ones, fraction field 0, sign 0) denotes +∞. -/
theorem ofBits_inf : Ideal.ofBits .f32 0x7F800000#32 = (⊤ : EReal) := by
  simp [Ideal.ofBits, Ideal.ieee]

/-- An extended real whose absolute value max(x, -x) is strictly below +∞ is a real number:
    at x = ⊥ and at x = ⊤ the absolute value is ⊤, and ⊤ < ⊤ is false. -/
theorem isReal_of_abs_lt_top (x : EReal) (h : Ideal.cmp .olt (max x (-x)) ⊤ = 1#1) : IsReal x := by
  induction x using EReal.rec with
  | bot => exfalso; revert h; simp [Ideal.cmp]
  | coe r => exact ⟨r, rfl⟩
  | top => exfalso; revert h; simp [Ideal.cmp]

/-- The shape of rank 0 has one index. -/
instance : Subsingleton Cert.Pre_finite_inputs.S_.Idx := ⟨fun a b => funext fun d => d.elim0⟩

/-- The precondition all(|features| < +∞) ∧ all(|scores| < +∞), evaluated to 1 on a device, says that every
    entry of both argument arrays on that device is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i)) := by
  have e := congrFun (h c) ValueIdx.ix0
  dsimp only [Cert.Pre_finite_inputs.fn] at e
  obtain ⟨e0, e1⟩ := IntOp.andi_eq_one.1 e
  refine ⟨fun i => ?_, fun i => ?_⟩
  · have hi := Host.reduce_andi_all _ _ _ _ _ e0 i
    exact isReal_of_abs_lt_top _ (by rw [← ofBits_inf]; exact hi)
  · have hi := Host.reduce_andi_all _ _ _ _ _ e1 i
    exact isReal_of_abs_lt_top _ (by rw [← ofBits_inf]; exact hi)

end Cert.Proof.Finite

end
-- ==== Proof.lean ====
/-
  The claim: the fused loss kernel and its reference agree on finite inputs.

  Per batch the kernel normalizes each row by `max(‖row‖, ε)`, sums the unit rows, takes each row's inner product `sim`
  with that sum, and from it the target and the row's cross-entropy term; it returns
  `(∑ -term) / 32768 + (1 - (∑ sim) / 2^27)`.  The reference returns `-((∑ term) / 32768) + (1 - (∑ Gram) / 2^27)` with
  the Gram matrix of all pairs of unit rows.  Since `∑_n sim b n = ∑_n ∑_d u b n d · (∑_m u b m d) = ∑_{n,m} ∑_d u b n d · u b m d`
  and a sum of negations is the negation of the sum, the two are equal — for real numbers; the extended reals do not
  distribute at the infinities, so the finiteness precondition is used: it makes every entry, hence every intermediate value,
  a real number.

  The three frames are the generated ones (the reference's is its generated run with the result dropped); no operation was
  rewritten by the idealization, so there is nothing to preserve.
-/
import proofs.«150549_j72284299592193_2_alg».proof.Defs
import proofs.«150549_j72284299592193_2_alg».proof.Proof.Gen.Kernel
import proofs.«150549_j72284299592193_2_alg».proof.Proof.Gen.Kernel.Skeleton
import proofs.«150549_j72284299592193_2_alg».proof.Proof.Gen.Kernel.Loops
import proofs.«150549_j72284299592193_2_alg».proof.Proof.Gen.Kernel.Launch
import proofs.«150549_j72284299592193_2_alg».proof.Proof.Gen.Kernel.Points
import proofs.«150549_j72284299592193_2_alg».proof.Proof.Gen.Kernel.Frame
import proofs.«150549_j72284299592193_2_alg».proof.Proof.Gen.KernelIdeal
import proofs.«150549_j72284299592193_2_alg».proof.Proof.Gen.KernelIdeal.Skeleton
import proofs.«150549_j72284299592193_2_alg».proof.Proof.Gen.KernelIdeal.Loops
import proofs.«150549_j72284299592193_2_alg».proof.Proof.Gen.KernelIdeal.Launch
import proofs.«150549_j72284299592193_2_alg».proof.Proof.Gen.KernelIdeal.Points
import proofs.«150549_j72284299592193_2_alg».proof.Proof.Gen.KernelIdeal.Frame
import proofs.«150549_j72284299592193_2_alg».proof.Proof.Gen.ReferenceIdeal
import proofs.«150549_j72284299592193_2_alg».proof.Proof.Gen.ReferenceIdeal.Run
import proofs.«150549_j72284299592193_2_alg».proof.Proof.Gen.ReferenceIdeal.Read
import proofs.«150549_j72284299592193_2_alg».proof.Proof.Gen.Pre_finite_inputs
import proofs.«150549_j72284299592193_2_alg».proof.Proof.KFinal
import proofs.«150549_j72284299592193_2_alg».proof.Proof.RefValue
import proofs.«150549_j72284299592193_2_alg».proof.Proof.LossAlgebra
import proofs.«150549_j72284299592193_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the loss of the argument arrays: the kernel in its arrangement, the reference in its own; on
    real entries the two arrangements are one number. -/
theorem algebraic : Cert.algebraic_KernelIdeal_ReferenceIdeal := by
  intro m ρ m' ρ' hpre hagree
  refine ⟨fun c _ => Cert.Loss.kernelLoss
      (Cert.Loss.feat (m ((c.tc : Thread Cert.KernelIdeal.nD Cert.KernelIdeal.τ).loc Cert.KernelIdeal.main_arg0)))
      (Cert.Loss.score (m ((c.tc : Thread Cert.KernelIdeal.nD Cert.KernelIdeal.τ).loc Cert.KernelIdeal.main_arg1))),
    Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v34_eq, Cert.ReferenceIdeal.RefValue.result_eq, (hagree c).1, (hagree c).2]
  funext _
  obtain ⟨hx, hs⟩ := Cert.Proof.Finite.real_of_pre m hpre c
  exact (Cert.Loss.kernelLoss_eq_referenceLoss _ _ (fun b n d => hx _) (fun b n => hs _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
